-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1x1024 : Shape := ⟨2, ![1, 1024]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x16x64 : Shape := ⟨3, ![512, 16, 64]⟩
abbrev S16x512x64 : Shape := ⟨3, ![16, 512, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S4096x1024 : Shape := ⟨2, ![4096, 1024]⟩

abbrev nBuf : Space → Nat
  | .hbm => 35
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S2x16x2048x64, .bf16⟩
  | .hbm, ⟨21, _⟩ => ⟨S1x1024, .f32⟩
  | .hbm, ⟨22, _⟩ => ⟨S2x16x2048x64, .bf16⟩
  | .hbm, ⟨23, _⟩ => ⟨S1x1024, .f32⟩
  | .hbm, ⟨24, _⟩ => ⟨S2x16x2048x64, .bf16⟩
  | .hbm, ⟨25, _⟩ => ⟨S32x2048x64, .bf16⟩
  | .hbm, ⟨26, _⟩ => ⟨S32x2048x64, .bf16⟩
  | .hbm, ⟨27, _⟩ => ⟨S32x2048x64, .bf16⟩
  | .hbm, ⟨28, _⟩ => ⟨S32x2048x64, .bf16⟩
  | .hbm, ⟨29, _⟩ => ⟨S2x16x2048x64, .bf16⟩
  | .hbm, ⟨30, _⟩ => ⟨S2x2048x1024, .bf16⟩
  | .hbm, ⟨31, _⟩ => ⟨S4096x1024, .bf16⟩
  | .hbm, ⟨32, _⟩ => ⟨S1x1024, .f32⟩
  | .hbm, ⟨33, _⟩ => ⟨S4096x1024, .f32⟩
  | .hbm, ⟨34, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1x16x512x64, .bf16⟩
  | .local _ .vmem, ⟨5, _⟩ => ⟨S1x16x512x64, .bf16⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1x1024, .f32⟩
  | .local _ .vmem, ⟨10, _⟩ => ⟨S1x16x512x64, .bf16⟩
  | .local _ .vmem, ⟨11, _⟩ => ⟨S1x16x512x64, .bf16⟩
  | .local _ .vmem, ⟨12, _⟩ => ⟨S1x512x1024, .f32⟩
  | .local _ .vmem, ⟨13, _⟩ => ⟨S1x512x1024, .f32⟩
  | .local _ .vmem, ⟨14, _⟩ => ⟨S1024x1024, .bf16⟩
  | .local _ .vmem, ⟨15, _⟩ => ⟨S1x1024, .f32⟩
  | .local _ .vmem, ⟨16, _⟩ => ⟨S1x16x512x64, .bf16⟩
  | .local _ .vmem, ⟨17, _⟩ => ⟨S1x16x512x64, .bf16⟩
  | .local _ .vmem, ⟨18, _⟩ => ⟨S1x512x64, .bf16⟩
  | .local _ .vmem, ⟨19, _⟩ => ⟨S1x512x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x512x64, .bf16⟩
  | .local _ .vmem, ⟨25, _⟩ => ⟨S1x512x64, .bf16⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x16x512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![32, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  shapeCasts_S2x16x2048x64_S2x2048x1024 : S2x16x2048x64.ShapeCasts S2x2048x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .bf16 = 32 ∨ (Rect.block (s := S2x16x2048x64) S1x16x512x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x1024.size a
  hwx1_0 : ∀ i : grid1.Coords, EltTy.bits .f32 = 32 ∨ (Rect.block (s := S2x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x512x64.size a ≤ S2x16x2048x64.size a
  hwx1_3 : ∀ i : grid1.Coords, EltTy.bits .bf16 = 32 ∨ (Rect.block (s := S2x16x2048x64) S1x16x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S2x2048x1024.size a
  hwx2_0 : ∀ i : grid2.Coords, EltTy.bits .f32 = 32 ∨ (Rect.block (s := S2x2048x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x16x512x64.size a ≤ S2x16x2048x64.size a
  hwx2_3 : ∀ i : grid2.Coords, EltTy.bits .bf16 = 32 ∨ (Rect.block (s := S2x16x2048x64) S1x16x512x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S32x2048x64.size a
  hwx3_0 : ∀ i : grid3.Coords, EltTy.bits .bf16 = 32 ∨ (Rect.block (s := S32x2048x64) S1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S32x2048x64.size a
  hwx3_1 : ∀ i : grid3.Coords, EltTy.bits .bf16 = 32 ∨ (Rect.block (s := S32x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .bf16 = 32 ∨ (Rect.block (s := S32x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x64.size a ≤ S32x2048x64.size a
  hwx3_3 : ∀ i : grid3.Coords, EltTy.bits .bf16 = 32 ∨ (Rect.block (s := S32x2048x64) S1x512x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x16x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x16x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x16x512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v20) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v22) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S_, .f32⟩
  | .hbm, ⟨39, _⟩ => ⟨S2x16x2048, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S2x16x2048x1, .f32⟩
  | .hbm, ⟨48, _⟩ => ⟨S2x16x2048x2048, .f32⟩
  | .hbm, ⟨49, _⟩ => ⟨S2x16x2048x2048, .f32⟩
  | .hbm, ⟨50, _⟩ => ⟨S2x16x2048x64, .f32⟩
  | .hbm, ⟨51, _⟩ => ⟨S2x2048x1024, .f32⟩
  | .hbm, ⟨52, _⟩ => ⟨S2x2048x1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  shapeCasts_S2x16x2048x64_S2x2048x1024 : S2x16x2048x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The whole run of the five-kernel program, with its RESULT named: every weakly fair execution from any memory with
  zero counters ends, nothing faulting, with the result buffer at the last boundary's contents (the fold of the host
  stretches and the five regions' write-backs over the launch memory) and the eleven argument arrays as launched.
  The launch, the chain of the eleven segments and the reading of the last thread state against the final state are
  the frame's; only the result buffer is read in addition, at the same boundary contents.
-/
import proofs.«151448_j37649683317083_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v23) = W11 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v23 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.RunV

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibMatmulNT.lean ====
/-
  A matrix product of an M × K matrix by an N × K matrix contracted on the LAST axis of both operands (the right
  operand taken transposed) into a zero accumulator, read at one entry on the extended reals: entry (i, j) is
  Σ_k lhs (i, k) · rhs (j, k). No rounding and no order of accumulation is left in it.
-/
import Idealize.ShloMosaic.PureOps.Ideal.Laws
import Idealize.ShloMosaic.Lib.ValueIdx

noncomputable section

namespace Cert.MatmulNT

open Idealize.ShloMosaic Idealize.ShloMosaic.ValueIdx

/-- Entry (i, j) of the product of `lhs` (M × K) and the transpose of `rhs` (N × K) accumulated into zeros. -/
theorem matmul_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.Spec.lean ====
/-
  Multi-head attention on the extended reals, entry by entry.

  Sizes: batch 2, sequence 2048, model width 1024 = 16 heads of 64 features. For an input x [2, 2048, 1024], a weight
  table W [1024, 1024] stored output-major and a bias b [1024], the projection into heads is
      P (n, h, s, d) = Σ_k x (n, s, k) · W (64 h + d, k) + b (64 h + d).
  With Q, K, V three such projections and a scale c, row i of head h of batch entry n scores every key position j by
      (Σ_d Q (n, h, i, d) · K (n, h, j, d)) · c,
  the scores' softmax along j weighs the rows of V, and the attended value is
      A (n, h, i, d) = Σ_j softmax (scores) (j) · V (n, h, j, d).
  The attended array is then read FLAT per batch entry — position 1024 s + k of the 16 · 2048 · 64 numbers of entry n,
  heads outermost — as a [2048, 1024] matrix (`cat`), and projected once more:
      out (n, s, e) = Σ_k A (cat n s k) · W (e, k) + b (e).

  The same functions are also written the way a blocked program sees its operands: the weight table stored input-major
  and the bias as a one-row matrix (`projHeadsT`, `linT`), and the two leading axes (batch, head) merged into one of
  extent 32 (`merge`, `attendM`). The lemmas below say these are the same numbers.

  The scale: the f32 words of 64, 1 and 1/8 denote those reals, and 1 / √64 = 1/8 on the extended reals.
-/
import Idealize.ShloMosaic.PureOps.Ideal
import Idealize.ShloMosaic.Lib.ValueIdx
import proofs.«151448_j37649683317083_2_alg».proof.Proof.LibRowSoftmax

noncomputable section

open scoped BigOperators

namespace Cert.Mha

open Idealize.ShloMosaic Idealize.ShloMosaic.ValueIdx Cert.RowSoftmax

abbrev Sx : Shape := ⟨3, ![2, 2048, 1024]⟩
abbrev Sw : Shape := ⟨2, ![1024, 1024]⟩
abbrev Sb : Shape := ⟨1, ![1024]⟩
abbrev Sb2 : Shape := ⟨2, ![1, 1024]⟩
abbrev Sh : Shape := ⟨4, ![2, 16, 2048, 64]⟩
abbrev Sm : Shape := ⟨3, ![32, 2048, 64]⟩
abbrev Sf : Shape := ⟨2, ![4096, 1024]⟩

/-! ## The scale -/

theorem ofBits_64 : Ideal.ofBits .f32 0x42800000#32 = ((64 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- One over the square root of 64 is one eighth: 64 is the square of 8. -/
theorem inv_sqrt_64 :
    Ideal.div (Ideal.ofBits .f32 0x3F800000#32) (Ideal.sqrt (Ideal.ofBits .f32 0x42800000#32))
      = Ideal.ofBits .f32 0x3E000000#32 := by
  have h8 : Real.sqrt 64 = 8 := by
    rw [show (64 : ℝ) = 8 ^ 2 by norm_num, Real.sqrt_sq (by norm_num)]
  rw [ofBits_64, ofBits_one, ofBits_eighth, Ideal.sqrt_coe, if_neg (by norm_num), h8,
    Ideal.div_coe (by norm_num : (8 : ℝ) ≠ 0), ← EReal.coe_mul]
  norm_num

/-! ## The function -/

/-- Column `64 h + d` of the model axis: feature `d` of head `h`. -/
def hd (h : Fin 16) (d : Fin 64) : Fin 1024 := ⟨h.val * 64 + d.val, by have := h.isLt; have := d.isLt; omega⟩

/-- The projection into heads, the weight table output-major. -/
def projHeads (x : Sx.Idx → EReal) (W : Sw.Idx → EReal) (b : Sb.Idx → EReal) : Sh.Idx → EReal :=
  fun i => (∑ k : Fin 1024, x (ix3 (n0 := 2) (n1 := 2048) (i 0) (i 2) k) * W (ix2 (n0 := 1024) (hd (i 1) (i 3)) k))
    + b (ix1 (hd (i 1) (i 3)))

/-- The same with the weight table input-major and the bias a one-row matrix. -/
def projHeadsT (x : Sx.Idx → EReal) (Wt : Sw.Idx → EReal) (b2 : Sb2.Idx → EReal) : Sh.Idx → EReal :=
  fun i => (∑ k : Fin 1024, x (ix3 (n0 := 2) (n1 := 2048) (i 0) (i 2) k) * Wt (ix2 (n1 := 1024) k (hd (i 1) (i 3))))
    + b2 (ix2 (0 : Fin 1) (hd (i 1) (i 3)))

theorem projHeadsT_eq (x : Sx.Idx → EReal) (W Wt : Sw.Idx → EReal) (b : Sb.Idx → EReal) (b2 : Sb2.Idx → EReal)
    (hW : ∀ (k e : Fin 1024), Wt (ix2 k e) = W (ix2 e k)) (hb : ∀ e : Fin 1024, b2 (ix2 (0 : Fin 1) e) = b (ix1 e)) :
    projHeadsT x Wt b2 = projHeads x W b := by
  funext i
  unfold projHeadsT projHeads
  rw [hb]
  exact congrArg (· + b (ix1 (hd (i 1) (i 3)))) (Finset.sum_congr rfl fun k _ => by rw [hW])

/-- Row `i` of head `h` of batch entry `n` against every key position. -/
def scoreRow (Q K : Sh.Idx → EReal) (c : EReal) (n : Fin 2) (h : Fin 16) (i : Fin 2048) : Fin 2048 → EReal :=
  fun j => (∑ d : Fin 64, Q (ix4 n h i d) * K (ix4 n h j d)) * c

/-- The attended values. -/
def attend (Q K V : Sh.Idx → EReal) (c : EReal) : Sh.Idx → EReal :=
  fun i => ∑ j : Fin 2048, rowSoftmax (scoreRow Q K c (i 0) (i 1) (i 2)) j
    * V (ix4 (n0 := 2) (n1 := 16) (n3 := 64) (i 0) (i 1) j (i 3))

/-- Batch entry and head merged into one axis of 32. -/
def merge (X : Sh.Idx → EReal) : Sm.Idx → EReal :=
  fun i => X (ix4 (n2 := 2048) (n3 := 64) (⟨(i 0).val / 16, by have : (i 0).val < 32 := (i 0).isLt; omega⟩ : Fin 2)
    (⟨(i 0).val % 16, Nat.mod_lt _ (by decide)⟩ : Fin 16) (i 1) (i 2))

/-- The attended values over the merged axis. -/
def attendM (Q K V : Sm.Idx → EReal) (c : EReal) : Sm.Idx → EReal :=
  fun i => ∑ j : Fin 2048,
    rowSoftmax (fun j' : Fin 2048 => (∑ d : Fin 64, Q (ix3 (n0 := 32) (n1 := 2048) (i 0) (i 1) d) * K (ix3 (n0 := 32) (i 0) j' d)) * c) j
      * V (ix3 (n0 := 32) (n2 := 64) (i 0) j (i 2))

theorem attendM_merge (Q K V : Sh.Idx → EReal) (c : EReal) :
    attendM (merge Q) (merge K) (merge V) c = merge (attend Q K V c) := by
  funext i
  rfl

/-- Position `1024 s + k` of batch entry `n`'s attended values, heads outermost. -/
def cat (n : Fin 2) (s : Fin 2048) (k : Fin 1024) : Sh.Idx :=
  ix4 n (⟨(s.val * 1024 + k.val) / 131072, by have := s.isLt; have := k.isLt; omega⟩ : Fin 16)
    (⟨(s.val * 1024 + k.val) / 64 % 2048, Nat.mod_lt _ (by decide)⟩ : Fin 2048)
    (⟨(s.val * 1024 + k.val) % 64, Nat.mod_lt _ (by decide)⟩ : Fin 64)

/-- The output projection of the flat-read attended values, the weight table output-major. -/
def outProj (A : Sh.Idx → EReal) (W : Sw.Idx → EReal) (b : Sb.Idx → EReal) : Sx.Idx → EReal :=
  fun i => (∑ k : Fin 1024, A (cat (i 0) (i 1) k) * W (ix2 (n0 := 1024) (i 2) k)) + b (ix1 (i 2))

/-- A dense layer on 4096 rows, the weight table input-major and the bias a one-row matrix. -/
def linT (X : Sf.Idx → EReal) (Wt : Sw.Idx → EReal) (b2 : Sb2.Idx → EReal) : Sf.Idx → EReal :=
  fun i => (∑ k : Fin 1024, X (ix2 (n0 := 4096) (i 0) k) * Wt (ix2 (n1 := 1024) k (i 1))) + b2 (ix2 (0 : Fin 1) (i 1))

/-- The whole layer. -/
def mha (q k v : Sx.Idx → EReal) (Wq : Sw.Idx → EReal) (bq : Sb.Idx → EReal) (Wk : Sw.Idx → EReal) (bk : Sb.Idx → EReal)
    (Wv : Sw.Idx → EReal) (bv : Sb.Idx → EReal) (Wo : Sw.Idx → EReal) (bo : Sb.Idx → EReal) (c : EReal) : Sx.Idx → EReal :=
  outProj (attend (projHeads q Wq bq) (projHeads k Wk bk) (projHeads v Wv bv) c) Wo bo

end Cert.Mha

end
-- ==== Proof.Payloads.lean ====
/-
  What each of the three kernel bodies computes, read at one entry of its output block on the extended reals.

  The projection body: a block of 512 rows x (f32, narrowed: the identity here) times the whole input-major weight table
  into a zero accumulator, plus the bias row broadcast down the rows, narrowed, then re-laid [512, 1024] → [512, 16, 64]
  → [16, 512, 64] → [1, 16, 512, 64]. Entry (0, h, r, d) is therefore entry (r, 64 h + d) of the dense layer.

  The attention body: a block of 512 query rows against all 2048 key rows (contracted on the feature axis), scaled by the
  word 0x3E000000, softmax along the key axis, then times the 2048 value rows. Entry (0, r, d) is
  Σ_j softmax (row r of the scaled scores) (j) · v (0, j, d).

  The output body: a dense layer on a block of 512 rows, no re-laying.
-/
import proofs.«151448_j37649683317083_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout
import proofs.«151448_j37649683317083_2_alg».proof.Proof.LibPlainMatmul
import proofs.«151448_j37649683317083_2_alg».proof.Proof.LibMatmulNT
import proofs.«151448_j37649683317083_2_alg».proof.Proof.LibRowSoftmax
import proofs.«151448_j37649683317083_2_alg».proof.Proof.Spec

noncomputable section

open scoped BigOperators

namespace Cert.KernelIdeal.Pay

open Cert.KernelIdeal Cert.KernelIdeal.Gen Idealize.ShloMosaic Idealize.ShloMosaic.ValueIdx Cert.Mha Cert.RowSoftmax

/-- The projection body at entry (0, h, r, d) of its block. -/
theorem proj_pay (x0 : Vec Ideal S1x512x1024 .f32) (x1 : Vec Ideal S1024x1024 .bf16) (x2 : Vec Ideal S1x1024 .f32)
    (z : Fin 1) (h : Fin 16) (r : Fin 512) (d : Fin 64) :
    k0_pay1 (F := Ideal) x0 x1 x2 (ix4 z h r d)
      = (∑ k : Fin 1024, x0 (ix3 (0 : Fin 1) r k) * x1 (ix2 k (hd h d))) + x2 (ix2 (0 : Fin 1) (hd h d)) := by
  unfold k0_pay1
  refine (shapeCast_abc_1abc_apply _ _ z h r d).trans ?_
  refine (transpose_apply _ _ _ (ix3 h r d) (ix3 r h d) fun b => ?_).trans ?_
  · match b with
    | ⟨0, _⟩ => rfl
    | ⟨1, _⟩ => rfl
    | ⟨2, _⟩ => rfl
  refine (shapeCast_apply _ _ (ix3 r h d) (ix2 r (hd h d)) ?_).trans ?_
  · rw [Shape.rowMajor_val_two, Shape.rowMajor_val_three]
    show r.val * 1024 + (h.val * 64 + d.val) = (r.val * 16 + h.val) * 64 + d.val
    omega
  refine (truncf_apply (ψ := .bf16) (φ := .f32) _ bitsLt_bf16_f32 _).trans ?_
  refine (addf_apply _ _ _).trans ?_
  refine congrArg₂ (· + ·) ?_ ?_
  · refine (Cert.PlainMatmul.matmul_zero_apply 512 1024 1024 none _ _ r (hd h d)).trans ?_
    refine Finset.sum_congr rfl fun k _ => congrArg₂ (· * ·) ?_ ?_
    · exact shapeCast_1ab_ab_apply x0 _ r k
    · exact congrFun (shapeCast_self x1 _) (ix2 k (hd h d))
  · refine (broadcastTo_1b_ab_apply _ _ r (hd h d)).trans ?_
    exact congrFun (shapeCast_self x2 _) (ix2 (0 : Fin 1) (hd h d))

/-- The three projection bodies are one function. -/
theorem k1_eq_k0 : @k1_pay1 Ideal _ = @k0_pay1 Ideal _ := rfl
theorem k2_eq_k0 : @k2_pay1 Ideal _ = @k0_pay1 Ideal _ := rfl

/-- The attention body at entry (0, r, d) of its block. -/
theorem attn_pay (x0 : Vec Ideal S1x512x64 .bf16) (x1 x2 : Vec Ideal S1x2048x64 .bf16)
    (z : Fin 1) (r : Fin 512) (d : Fin 64) :
    k3_pay1 (F := Ideal) x0 x1 x2 (ix3 z r d)
      = ∑ j : Fin 2048, rowSoftmax (fun j' : Fin 2048 =>
            (∑ e : Fin 64, x0 (ix3 (0 : Fin 1) r e) * x1 (ix3 (0 : Fin 1) j' e)) * Ideal.ofBits .f32 0x3E000000#32) j
          * x2 (ix3 (0 : Fin 1) j d) := by
  unfold k3_pay1
  refine (shapeCast_ab_1ab_apply _ _ z r d).trans ?_
  refine (truncf_apply (ψ := .bf16) (φ := .f32) _ bitsLt_bf16_f32 _).trans ?_
  refine (Cert.PlainMatmul.matmul_zero_apply 512 2048 64 none _ _ r d).trans ?_
  refine Finset.sum_congr rfl fun j _ => congrArg₂ (· * ·) ?_ ?_
  · refine (truncf_apply (ψ := .bf16) (φ := .f32) _ bitsLt_bf16_f32 _).trans ?_
    refine (vectorSoftmax_apply _ _ _ _ _ _ _ _ r j).trans ?_
    rw [softmax2_ix2]
    refine congrArg (fun f => rowSoftmax f j) (funext fun j' => ?_)
    refine (mulf_apply _ _ _).trans ?_
    refine congrArg₂ (· * ·) ?_ rfl
    refine (Cert.MatmulNT.matmul_zero_apply 512 64 2048 none _ _ r j').trans ?_
    refine Finset.sum_congr rfl fun e _ => congrArg₂ (· * ·) ?_ ?_
    · exact shapeCast_1ab_ab_apply x0 _ r e
    · exact shapeCast_1ab_ab_apply x1 _ j' e
  · exact shapeCast_1ab_ab_apply x2 _ j d

/-- The output body at entry (r, e) of its block. -/
theorem lin_pay (x0 : Vec Ideal S512x1024 .bf16) (x1 : Vec Ideal S1024x1024 .bf16) (x2 : Vec Ideal S1x1024 .f32)
    (r : Fin 512) (e : Fin 1024) :
    k4_pay1 (F := Ideal) x0 x1 x2 (ix2 r e)
      = (∑ k : Fin 1024, x0 (ix2 r k) * x1 (ix2 k e)) + x2 (ix2 (0 : Fin 1) e) := by
  unfold k4_pay1
  refine (addf_apply _ _ _).trans ?_
  refine congrArg₂ (· + ·) ?_ ?_
  · refine (Cert.PlainMatmul.matmul_zero_apply 512 1024 1024 none _ _ r e).trans ?_
    refine Finset.sum_congr rfl fun k _ => congrArg₂ (· * ·) ?_ ?_
    · exact congrFun (shapeCast_self x0 _) (ix2 r k)
    · exact congrFun (shapeCast_self x1 _) (ix2 k e)
  · refine (broadcastTo_1b_ab_apply _ _ r e).trans ?_
    exact congrFun (shapeCast_self x2 _) (ix2 (0 : Fin 1) e)

end Cert.KernelIdeal.Pay

end
-- ==== Proof.Region0.lean ====
/-
  Region 0 (a projection into heads), whatever the buffers hold when it is entered: after its 8 grid points — batch
  entry n, row block s of 512 rows — the output array [2, 16, 2048, 64] holds the projection of the three operand arrays
  as the region found them. Point (n, s) reads rows 512 s … 512 s + 511 of batch entry n, the whole weight table and
  the whole bias row, and writes the block (n, all heads, those rows, all features); the 8 blocks tile the array.
-/
import proofs.«151448_j37649683317083_2_alg».proof.Proof.Gen.KernelIdeal.Frame
import proofs.«151448_j37649683317083_2_alg».proof.Proof.Payloads

set_option maxRecDepth 16384

noncomputable section

open scoped BigOperators

namespace Cert.KernelIdeal.R0

open Cert.KernelIdeal Cert.KernelIdeal.Gen Idealize.ShloMosaic Idealize.ShloMosaic.TcCoe Idealize.SL.Sem
open Idealize.ShloMosaic.ValueIdx Cert.Mha
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body on a block against the whole arrays: when the x block is rows `512 s0 …` of batch entry `n`, and the other
    two operands are the whole weight table and bias row, entry `j` of the block the body leaves is entry `i` of the
    projection, `i` being `j` moved to batch entry `n` and down `512 s0` rows. -/
theorem proj_block (X : Sx.Idx → EReal) (Wt : Sw.Idx → EReal) (B2 : Sb2.Idx → EReal)
    (x0 : Vec Ideal S1x512x1024 .f32) (x1 : Vec Ideal S1024x1024 .bf16) (x2 : Vec Ideal S1x1024 .f32)
    (n s0 : ℕ)
    (e0 : ∀ (y : S1x512x1024.Idx) (i : Sx.Idx), (i 0).val = n → (i 1).val = s0 * 512 + (y 1).val → (i 2).val = (y 2).val → x0 y = X i)
    (e1 : x1 = Wt) (e2 : x2 = B2)
    (j : S1x16x512x64.Idx) (i : Sh.Idx) (h0 : (i 0).val = n) (h1 : (i 1).val = (j 1).val)
    (h2 : (i 2).val = s0 * 512 + (j 2).val) (h3 : (i 3).val = (j 3).val) :
    k0_pay1 (F := Ideal) x0 x1 x2 j = projHeadsT X Wt B2 i := by
  obtain ⟨z, h, r, d, rfl⟩ : ∃ (z : Fin 1) (h : Fin 16) (r : Fin 512) (d : Fin 64), j = ix4 z h r d := ⟨j 0, j 1, j 2, j 3, eq_ix4 j⟩
  obtain ⟨n', h', s', d', rfl⟩ : ∃ (n' : Fin 2) (h' : Fin 16) (s' : Fin 2048) (d' : Fin 64), i = ix4 n' h' s' d' := ⟨i 0, i 1, i 2, i 3, eq_ix4 i⟩
  obtain rfl : h' = h := Fin.ext h1
  obtain rfl : d' = d := Fin.ext h3
  subst e1 e2
  refine (Cert.KernelIdeal.Pay.proj_pay x0 x1 x2 z h' r d').trans ?_
  show _ = (∑ k : Fin 1024, X (ix3 n' s' k) * x1 (ix2 k (hd h' d'))) + x2 (ix2 (0 : Fin 1) (hd h' d'))
  refine congrArg (· + x2 (ix2 (0 : Fin 1) (hd h' d'))) (Finset.sum_congr rfl fun k _ => congrArg (· * x1 (ix2 k (hd h' d'))) ?_)
  exact e0 (ix3 (0 : Fin 1) r k) (ix3 n' s' k) h0 h2 rfl

/-- The printed index maps over the 8 points. -/
theorem idx_facts : ∀ t : Fin cfg0.N,
    win0_0.index t (0 : Fin 3) = win0_3.index t (0 : Fin 4) ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 4) = 0 ∧ win0_3.index t (3 : Fin 4) = 0
    ∧ win0_3.index t (0 : Fin 4) ≤ 1 ∧ win0_3.index t (2 : Fin 4) ≤ 3 :=
  (by decide +kernel : ∀ t : Fin grid0.N, _)

/-- Every block of the output is some point's. -/
theorem idx_onto : ∀ (q0 : Fin 2) (q2 : Fin 4), ∃ t : Fin cfg0.N, win0_3.index t = ![q0.val, 0, q2.val, 0] :=
  (by decide +kernel : ∀ (q0 : Fin 2) (q2 : Fin 4), ∃ t : Fin grid0.N, win0_3.index t = ![q0.val, 0, q2.val, 0])

/-- What point `t` writes back is block `t` of the projection of the operand arrays as the region found them. -/
theorem flushed_eq (c : Dev nD) (t : Fin cfg0.N) :
    (dat0 V c).flushed 3 t = ((cfg0.win 3).blk t).view.read (Elt Ideal)
      (projHeadsT (V c main_arg0) (V c main_v1) (V c main_v8)) := by
  show (cfg0.win 3).cut (grid0.coords t) ((dat0 V c).after 3 t) = _
  rw [after0_3]
  unfold out0_3
  rw [View.canon_unit_zero hz4]
  simp only [View.ld_unit_zero (S := S1x512x1024) hz3, View.ld_unit_zero (S := S1024x1024) hz2, View.ld_unit_zero (S := S1x1024) hz2]
  obtain ⟨e0, e1, e2, e3, e4, e5, e6, e7, e8, e9, e10⟩ := idx_facts t
  funext j
  show k0_pay1 (iblk0 V c 0 t) (iblk0 V c 1 t) (iblk0 V c 2 t) j
    = projHeadsT (V c main_arg0) (V c main_v1) (V c main_v8) (((cfg0.win 3).blk t).view.emb j)
  have hj0 : (j 0).val < 1 := (j 0).isLt
  refine proj_block (V c main_arg0) (V c main_v1) (V c main_v8) (iblk0 V c 0 t) (iblk0 V c 1 t) (iblk0 V c 2 t)
    (win0_3.index t (0 : Fin 4)) (win0_3.index t (2 : Fin 4)) ?_ ?_ ?_ j _ ?_ ?_ ?_ ?_
  · intro y i a0 a1 a2
    have hy0 : (y 0).val < 1 := (y 0).isLt
    unfold iblk0
    rw [View.read_apply]
    show V c main_arg0 (((cfg0.win 0).blk t).view.emb y) = V c main_arg0 i
    refine congrArg _ (funext fun a => Fin.ext ?_)
    match a with
    | ⟨0, _⟩ => show win0_0.index t (0 : Fin 3) * 1 + 1 * (y 0).val = (i 0).val; omega
    | ⟨1, _⟩ => show win0_0.index t (1 : Fin 3) * 512 + 1 * (y 1).val = (i 1).val; omega
    | ⟨2, _⟩ => show win0_0.index t (2 : Fin 3) * 1024 + 1 * (y 2).val = (i 2).val; omega
  · funext y
    unfold iblk0
    rw [View.read_apply]
    show V c main_v1 (((cfg0.win 1).blk t).view.emb y) = V c main_v1 y
    refine congrArg _ (funext fun a => Fin.ext ?_)
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · funext y
    unfold iblk0
    rw [View.read_apply]
    show V c main_v8 (((cfg0.win 2).blk t).view.emb y) = V c main_v8 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 1024 + 1 * (y 1).val = (y 1).val; omega
  · show win0_3.index t (0 : Fin 4) * 1 + 1 * (j 0).val = win0_3.index t (0 : Fin 4); omega
  · show win0_3.index t (1 : Fin 4) * 16 + 1 * (j 1).val = (j 1).val; omega
  · show win0_3.index t (2 : Fin 4) * 512 + 1 * (j 2).val = win0_3.index t (2 : Fin 4) * 512 + (j 2).val; omega
  · show win0_3.index t (3 : Fin 4) * 64 + 1 * (j 3).val = (j 3).val; omega

/-- An index of the array is in point `t`'s block iff each coordinate is in the block's range on its axis. -/
theorem mem_blk (t : Fin cfg0.N) (i : S2x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v9).slice (win0_3.rect t)).set ↔ _
  rw [View.set_slice_whole, Rect.mem_set_unit]
  exact Iff.rfl

/-- The 8 blocks cover the array: row `r` of batch entry `n` is in the block of point (n, r / 512). -/
theorem cover (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The output array after the region: the projection of the operand arrays as the region found them. -/
theorem final (c : Dev nD) :
    (dat0 V c).arrAt 3 cfg0.N = projHeadsT (V c main_arg0) (V c main_v1) (V c main_v8) :=
  (dat0 V c).arrAt_eq_of_cover 3 _ (fun t _ => flushed_eq V c t) cover

end Cert.KernelIdeal.R0

end
-- ==== Proof.Region1.lean ====
/-
  Region 1 (a projection into heads), whatever the buffers hold when it is entered: after its 8 grid points — batch
  entry n, row block s of 512 rows — the output array [2, 16, 2048, 64] holds the projection of the three operand arrays
  as the region found them. Point (n, s) reads rows 512 s … 512 s + 511 of batch entry n, the whole weight table and
  the whole bias row, and writes the block (n, all heads, those rows, all features); the 8 blocks tile the array.
-/
import proofs.«151448_j37649683317083_2_alg».proof.Proof.Gen.KernelIdeal.Frame
import proofs.«151448_j37649683317083_2_alg».proof.Proof.Payloads

set_option maxRecDepth 16384

noncomputable section

open scoped BigOperators

namespace Cert.KernelIdeal.R1

open Cert.KernelIdeal Cert.KernelIdeal.Gen Idealize.ShloMosaic Idealize.ShloMosaic.TcCoe Idealize.SL.Sem
open Idealize.ShloMosaic.ValueIdx Cert.Mha
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body on a block against the whole arrays: when the x block is rows `512 s0 …` of batch entry `n`, and the other
    two operands are the whole weight table and bias row, entry `j` of the block the body leaves is entry `i` of the
    projection, `i` being `j` moved to batch entry `n` and down `512 s0` rows. -/
theorem proj_block (X : Sx.Idx → EReal) (Wt : Sw.Idx → EReal) (B2 : Sb2.Idx → EReal)
    (x0 : Vec Ideal S1x512x1024 .f32) (x1 : Vec Ideal S1024x1024 .bf16) (x2 : Vec Ideal S1x1024 .f32)
    (n s0 : ℕ)
    (e0 : ∀ (y : S1x512x1024.Idx) (i : Sx.Idx), (i 0).val = n → (i 1).val = s0 * 512 + (y 1).val → (i 2).val = (y 2).val → x0 y = X i)
    (e1 : x1 = Wt) (e2 : x2 = B2)
    (j : S1x16x512x64.Idx) (i : Sh.Idx) (h0 : (i 0).val = n) (h1 : (i 1).val = (j 1).val)
    (h2 : (i 2).val = s0 * 512 + (j 2).val) (h3 : (i 3).val = (j 3).val) :
    k1_pay1 (F := Ideal) x0 x1 x2 j = projHeadsT X Wt B2 i := by
  obtain ⟨z, h, r, d, rfl⟩ : ∃ (z : Fin 1) (h : Fin 16) (r : Fin 512) (d : Fin 64), j = ix4 z h r d := ⟨j 0, j 1, j 2, j 3, eq_ix4 j⟩
  obtain ⟨n', h', s', d', rfl⟩ : ∃ (n' : Fin 2) (h' : Fin 16) (s' : Fin 2048) (d' : Fin 64), i = ix4 n' h' s' d' := ⟨i 0, i 1, i 2, i 3, eq_ix4 i⟩
  obtain rfl : h' = h := Fin.ext h1
  obtain rfl : d' = d := Fin.ext h3
  subst e1 e2
  refine (Cert.KernelIdeal.Pay.proj_pay x0 x1 x2 z h' r d').trans ?_
  show _ = (∑ k : Fin 1024, X (ix3 n' s' k) * x1 (ix2 k (hd h' d'))) + x2 (ix2 (0 : Fin 1) (hd h' d'))
  refine congrArg (· + x2 (ix2 (0 : Fin 1) (hd h' d'))) (Finset.sum_congr rfl fun k _ => congrArg (· * x1 (ix2 k (hd h' d'))) ?_)
  exact e0 (ix3 (0 : Fin 1) r k) (ix3 n' s' k) h0 h2 rfl

/-- The printed index maps over the 8 points. -/
theorem idx_facts : ∀ t : Fin cfg1.N,
    win1_0.index t (0 : Fin 3) = win1_3.index t (0 : Fin 4) ∧ win1_0.index t (1 : Fin 3) = win1_3.index t (2 : Fin 4)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 4) = 0 ∧ win1_3.index t (3 : Fin 4) = 0
    ∧ win1_3.index t (0 : Fin 4) ≤ 1 ∧ win1_3.index t (2 : Fin 4) ≤ 3 :=
  (by decide +kernel : ∀ t : Fin grid1.N, _)

/-- Every block of the output is some point's. -/
theorem idx_onto : ∀ (q0 : Fin 2) (q2 : Fin 4), ∃ t : Fin cfg1.N, win1_3.index t = ![q0.val, 0, q2.val, 0] :=
  (by decide +kernel : ∀ (q0 : Fin 2) (q2 : Fin 4), ∃ t : Fin grid1.N, win1_3.index t = ![q0.val, 0, q2.val, 0])

/-- What point `t` writes back is block `t` of the projection of the operand arrays as the region found them. -/
theorem flushed_eq (c : Dev nD) (t : Fin cfg1.N) :
    (dat1 V c).flushed 3 t = ((cfg1.win 3).blk t).view.read (Elt Ideal)
      (projHeadsT (V c main_arg1) (V c main_v3) (V c main_v10)) := by
  show (cfg1.win 3).cut (grid1.coords t) ((dat1 V c).after 3 t) = _
  rw [after1_3]
  unfold out1_3
  rw [View.canon_unit_zero hz4]
  simp only [View.ld_unit_zero (S := S1x512x1024) hz3, View.ld_unit_zero (S := S1024x1024) hz2, View.ld_unit_zero (S := S1x1024) hz2]
  obtain ⟨e0, e1, e2, e3, e4, e5, e6, e7, e8, e9, e10⟩ := idx_facts t
  funext j
  show k1_pay1 (iblk1 V c 0 t) (iblk1 V c 1 t) (iblk1 V c 2 t) j
    = projHeadsT (V c main_arg1) (V c main_v3) (V c main_v10) (((cfg1.win 3).blk t).view.emb j)
  have hj0 : (j 0).val < 1 := (j 0).isLt
  refine proj_block (V c main_arg1) (V c main_v3) (V c main_v10) (iblk1 V c 0 t) (iblk1 V c 1 t) (iblk1 V c 2 t)
    (win1_3.index t (0 : Fin 4)) (win1_3.index t (2 : Fin 4)) ?_ ?_ ?_ j _ ?_ ?_ ?_ ?_
  · intro y i a0 a1 a2
    have hy0 : (y 0).val < 1 := (y 0).isLt
    unfold iblk1
    rw [View.read_apply]
    show V c main_arg1 (((cfg1.win 0).blk t).view.emb y) = V c main_arg1 i
    refine congrArg _ (funext fun a => Fin.ext ?_)
    match a with
    | ⟨0, _⟩ => show win1_0.index t (0 : Fin 3) * 1 + 1 * (y 0).val = (i 0).val; omega
    | ⟨1, _⟩ => show win1_0.index t (1 : Fin 3) * 512 + 1 * (y 1).val = (i 1).val; omega
    | ⟨2, _⟩ => show win1_0.index t (2 : Fin 3) * 1024 + 1 * (y 2).val = (i 2).val; omega
  · funext y
    unfold iblk1
    rw [View.read_apply]
    show V c main_v3 (((cfg1.win 1).blk t).view.emb y) = V c main_v3 y
    refine congrArg _ (funext fun a => Fin.ext ?_)
    match a with
    | ⟨0, _⟩ => show win1_1.index t (0 : Fin 2) * 1024 + 1 * (y 0).val = (y 0).val; omega
    | ⟨1, _⟩ => show win1_1.index t (1 : Fin 2) * 1024 + 1 * (y 1).val = (y 1).val; omega
  · funext y
    unfold iblk1
    rw [View.read_apply]
    show V c main_v10 (((cfg1.win 2).blk t).view.emb y) = V c main_v10 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 1024 + 1 * (y 1).val = (y 1).val; omega
  · show win1_3.index t (0 : Fin 4) * 1 + 1 * (j 0).val = win1_3.index t (0 : Fin 4); omega
  · show win1_3.index t (1 : Fin 4) * 16 + 1 * (j 1).val = (j 1).val; omega
  · show win1_3.index t (2 : Fin 4) * 512 + 1 * (j 2).val = win1_3.index t (2 : Fin 4) * 512 + (j 2).val; omega
  · show win1_3.index t (3 : Fin 4) * 64 + 1 * (j 3).val = (j 3).val; omega

/-- An index of the array is in point `t`'s block iff each coordinate is in the block's range on its axis. -/
theorem mem_blk (t : Fin cfg1.N) (i : S2x16x2048x64.Idx) :
    i ∈ ((cfg1.win 3).blk t).view.set ↔ ∀ a : Fin 4, win1_3.index t a * S1x16x512x64.size a ≤ (i a).val
      ∧ (i a).val < win1_3.index t a * S1x16x512x64.size a + S1x16x512x64.size a := by
  show i ∈ ((View.whole main_v11).slice (win1_3.rect t)).set ↔ _
  rw [View.set_slice_whole, Rect.mem_set_unit]
  exact Iff.rfl

/-- The 8 blocks cover the array: row `r` of batch entry `n` is in the block of point (n, r / 512). -/
theorem cover (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 512, by omega⟩
  have q0 : win1_3.index t (0 : Fin 4) = (i 0).val := congrFun ht 0
  have q1 : win1_3.index t (1 : Fin 4) = 0 := congrFun ht 1
  have q2 : win1_3.index t (2 : Fin 4) = (i 2).val / 512 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 16 ≤ (i 1).val ∧ (i 1).val < win1_3.index t (1 : Fin 4) * 16 + 16; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- The output array after the region: the projection of the operand arrays as the region found them. -/
theorem final (c : Dev nD) :
    (dat1 V c).arrAt 3 cfg1.N = projHeadsT (V c main_arg1) (V c main_v3) (V c main_v10) :=
  (dat1 V c).arrAt_eq_of_cover 3 _ (fun t _ => flushed_eq V c t) cover

end Cert.KernelIdeal.R1

end
-- ==== Proof.Region2.lean ====
/-
  Region 2 (a projection into heads), whatever the buffers hold when it is entered: after its 8 grid points — batch
  entry n, row block s of 512 rows — the output array [2, 16, 2048, 64] holds the projection of the three operand arrays
  as the region found them. Point (n, s) reads rows 512 s … 512 s + 511 of batch entry n, the whole weight table and
  the whole bias row, and writes the block (n, all heads, those rows, all features); the 8 blocks tile the array.
-/
import proofs.«151448_j37649683317083_2_alg».proof.Proof.Gen.KernelIdeal.Frame
import proofs.«151448_j37649683317083_2_alg».proof.Proof.Payloads

set_option maxRecDepth 16384

noncomputable section

open scoped BigOperators

namespace Cert.KernelIdeal.R2

open Cert.KernelIdeal Cert.KernelIdeal.Gen Idealize.ShloMosaic Idealize.ShloMosaic.TcCoe Idealize.SL.Sem
open Idealize.ShloMosaic.ValueIdx Cert.Mha
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body on a block against the whole arrays: when the x block is rows `512 s0 …` of batch entry `n`, and the other
    two operands are the whole weight table and bias row, entry `j` of the block the body leaves is entry `i` of the
    projection, `i` being `j` moved to batch entry `n` and down `512 s0` rows. -/
theorem proj_block (X : Sx.Idx → EReal) (Wt : Sw.Idx → EReal) (B2 : Sb2.Idx → EReal)
    (x0 : Vec Ideal S1x512x1024 .f32) (x1 : Vec Ideal S1024x1024 .bf16) (x2 : Vec Ideal S1x1024 .f32)
    (n s0 : ℕ)
    (e0 : ∀ (y : S1x512x1024.Idx) (i : Sx.Idx), (i 0).val = n → (i 1).val = s0 * 512 + (y 1).val → (i 2).val = (y 2).val → x0 y = X i)
    (e1 : x1 = Wt) (e2 : x2 = B2)
    (j : S1x16x512x64.Idx) (i : Sh.Idx) (h0 : (i 0).val = n) (h1 : (i 1).val = (j 1).val)
    (h2 : (i 2).val = s0 * 512 + (j 2).val) (h3 : (i 3).val = (j 3).val) :
    k2_pay1 (F := Ideal) x0 x1 x2 j = projHeadsT X Wt B2 i := by
  obtain ⟨z, h, r, d, rfl⟩ : ∃ (z : Fin 1) (h : Fin 16) (r : Fin 512) (d : Fin 64), j = ix4 z h r d := ⟨j 0, j 1, j 2, j 3, eq_ix4 j⟩
  obtain ⟨n', h', s', d', rfl⟩ : ∃ (n' : Fin 2) (h' : Fin 16) (s' : Fin 2048) (d' : Fin 64), i = ix4 n' h' s' d' := ⟨i 0, i 1, i 2, i 3, eq_ix4 i⟩
  obtain rfl : h' = h := Fin.ext h1
  obtain rfl : d' = d := Fin.ext h3
  subst e1 e2
  refine (Cert.KernelIdeal.Pay.proj_pay x0 x1 x2 z h' r d').trans ?_
  show _ = (∑ k : Fin 1024, X (ix3 n' s' k) * x1 (ix2 k (hd h' d'))) + x2 (ix2 (0 : Fin 1) (hd h' d'))
  refine congrArg (· + x2 (ix2 (0 : Fin 1) (hd h' d'))) (Finset.sum_congr rfl fun k _ => congrArg (· * x1 (ix2 k (hd h' d'))) ?_)
  exact e0 (ix3 (0 : Fin 1) r k) (ix3 n' s' k) h0 h2 rfl

/-- The printed index maps over the 8 points. -/
theorem idx_facts : ∀ t : Fin cfg2.N,
    win2_0.index t (0 : Fin 3) = win2_3.index t (0 : Fin 4) ∧ win2_0.index t (1 : Fin 3) = win2_3.index t (2 : Fin 4)
    ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 4) = 0 ∧ win2_3.index t (3 : Fin 4) = 0
    ∧ win2_3.index t (0 : Fin 4) ≤ 1 ∧ win2_3.index t (2 : Fin 4) ≤ 3 :=
  (by decide +kernel : ∀ t : Fin grid2.N, _)

/-- Every block of the output is some point's. -/
theorem idx_onto : ∀ (q0 : Fin 2) (q2 : Fin 4), ∃ t : Fin cfg2.N, win2_3.index t = ![q0.val, 0, q2.val, 0] :=
  (by decide +kernel : ∀ (q0 : Fin 2) (q2 : Fin 4), ∃ t : Fin grid2.N, win2_3.index t = ![q0.val, 0, q2.val, 0])

/-- What point `t` writes back is block `t` of the projection of the operand arrays as the region found them. -/
theorem flushed_eq (c : Dev nD) (t : Fin cfg2.N) :
    (dat2 V c).flushed 3 t = ((cfg2.win 3).blk t).view.read (Elt Ideal)
      (projHeadsT (V c main_arg2) (V c main_v5) (V c main_v12)) := by
  show (cfg2.win 3).cut (grid2.coords t) ((dat2 V c).after 3 t) = _
  rw [after2_3]
  unfold out2_3
  rw [View.canon_unit_zero hz4]
  simp only [View.ld_unit_zero (S := S1x512x1024) hz3, View.ld_unit_zero (S := S1024x1024) hz2, View.ld_unit_zero (S := S1x1024) hz2]
  obtain ⟨e0, e1, e2, e3, e4, e5, e6, e7, e8, e9, e10⟩ := idx_facts t
  funext j
  show k2_pay1 (iblk2 V c 0 t) (iblk2 V c 1 t) (iblk2 V c 2 t) j
    = projHeadsT (V c main_arg2) (V c main_v5) (V c main_v12) (((cfg2.win 3).blk t).view.emb j)
  have hj0 : (j 0).val < 1 := (j 0).isLt
  refine proj_block (V c main_arg2) (V c main_v5) (V c main_v12) (iblk2 V c 0 t) (iblk2 V c 1 t) (iblk2 V c 2 t)
    (win2_3.index t (0 : Fin 4)) (win2_3.index t (2 : Fin 4)) ?_ ?_ ?_ j _ ?_ ?_ ?_ ?_
  · intro y i a0 a1 a2
    have hy0 : (y 0).val < 1 := (y 0).isLt
    unfold iblk2
    rw [View.read_apply]
    show V c main_arg2 (((cfg2.win 0).blk t).view.emb y) = V c main_arg2 i
    refine congrArg _ (funext fun a => Fin.ext ?_)
    match a with
    | ⟨0, _⟩ => show win2_0.index t (0 : Fin 3) * 1 + 1 * (y 0).val = (i 0).val; omega
    | ⟨1, _⟩ => show win2_0.index t (1 : Fin 3) * 512 + 1 * (y 1).val = (i 1).val; omega
    | ⟨2, _⟩ => show win2_0.index t (2 : Fin 3) * 1024 + 1 * (y 2).val = (i 2).val; omega
  · funext y
    unfold iblk2
    rw [View.read_apply]
    show V c main_v5 (((cfg2.win 1).blk t).view.emb y) = V c main_v5 y
    refine congrArg _ (funext fun a => Fin.ext ?_)
    match a with
    | ⟨0, _⟩ => show win2_1.index t (0 : Fin 2) * 1024 + 1 * (y 0).val = (y 0).val; omega
    | ⟨1, _⟩ => show win2_1.index t (1 : Fin 2) * 1024 + 1 * (y 1).val = (y 1).val; omega
  · funext y
    unfold iblk2
    rw [View.read_apply]
    show V c main_v12 (((cfg2.win 2).blk t).view.emb y) = V c main_v12 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 1024 + 1 * (y 1).val = (y 1).val; omega
  · show win2_3.index t (0 : Fin 4) * 1 + 1 * (j 0).val = win2_3.index t (0 : Fin 4); omega
  · show win2_3.index t (1 : Fin 4) * 16 + 1 * (j 1).val = (j 1).val; omega
  · show win2_3.index t (2 : Fin 4) * 512 + 1 * (j 2).val = win2_3.index t (2 : Fin 4) * 512 + (j 2).val; omega
  · show win2_3.index t (3 : Fin 4) * 64 + 1 * (j 3).val = (j 3).val; omega

/-- An index of the array is in point `t`'s block iff each coordinate is in the block's range on its axis. -/
theorem mem_blk (t : Fin cfg2.N) (i : S2x16x2048x64.Idx) :
    i ∈ ((cfg2.win 3).blk t).view.set ↔ ∀ a : Fin 4, win2_3.index t a * S1x16x512x64.size a ≤ (i a).val
      ∧ (i a).val < win2_3.index t a * S1x16x512x64.size a + S1x16x512x64.size a := by
  show i ∈ ((View.whole main_v13).slice (win2_3.rect t)).set ↔ _
  rw [View.set_slice_whole, Rect.mem_set_unit]
  exact Iff.rfl

/-- The 8 blocks cover the array: row `r` of batch entry `n` is in the block of point (n, r / 512). -/
theorem cover (i : S2x16x2048x64.Idx) :
    ∃ t : Fin cfg2.N, (cfg2.win 3).flush t = true ∧ i ∈ ((cfg2.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 512, by omega⟩
  have q0 : win2_3.index t (0 : Fin 4) = (i 0).val := congrFun ht 0
  have q1 : win2_3.index t (1 : Fin 4) = 0 := congrFun ht 1
  have q2 : win2_3.index t (2 : Fin 4) = (i 2).val / 512 := congrFun ht 2
  have q3 : win2_3.index t (3 : Fin 4) = 0 := congrFun ht 3
  refine ⟨t, flush2_3 t, ?_⟩
  rw [mem_blk]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 16 ≤ (i 1).val ∧ (i 1).val < win2_3.index t (1 : Fin 4) * 16 + 16; omega
  | ⟨2, _⟩ => show win2_3.index t (2 : Fin 4) * 512 ≤ (i 2).val ∧ (i 2).val < win2_3.index t (2 : Fin 4) * 512 + 512; omega
  | ⟨3, _⟩ => show win2_3.index t (3 : Fin 4) * 64 ≤ (i 3).val ∧ (i 3).val < win2_3.index t (3 : Fin 4) * 64 + 64; omega

/-- The output array after the region: the projection of the operand arrays as the region found them. -/
theorem final (c : Dev nD) :
    (dat2 V c).arrAt 3 cfg2.N = projHeadsT (V c main_arg2) (V c main_v5) (V c main_v12) :=
  (dat2 V c).arrAt_eq_of_cover 3 _ (fun t _ => flushed_eq V c t) cover

end Cert.KernelIdeal.R2

end
-- ==== Proof.Region3.lean ====
/-
  Region 3 (attention over merged heads), whatever the buffers hold when it is entered: after its 128 grid points —
  merged head g of 32, query block q of 512 rows — the output array [32, 2048, 64] holds the attended values of the three
  operand arrays as the region found them. Point (g, q) reads query rows 512 q … 512 q + 511 of head g and ALL key and
  value rows of head g, and writes the block (g, those rows, all features); the 128 blocks tile the array.
-/
import proofs.«151448_j37649683317083_2_alg».proof.Proof.Gen.KernelIdeal.Frame
import proofs.«151448_j37649683317083_2_alg».proof.Proof.Payloads

set_option maxRecDepth 16384

noncomputable section

open scoped BigOperators

namespace Cert.KernelIdeal.R3

open Cert.KernelIdeal Cert.KernelIdeal.Gen Idealize.ShloMosaic Idealize.ShloMosaic.TcCoe Idealize.SL.Sem
open Idealize.ShloMosaic.ValueIdx Cert.Mha Cert.RowSoftmax
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The scale the body multiplies the scores by. -/
abbrev cK : EReal := Ideal.ofBits .f32 0x3E000000#32

/-- The body on a block against the whole arrays: when the query block is rows `512 q0 …` of merged head `g` and the
    key and value blocks are all rows of merged head `g`, entry `j` of the block the body leaves is entry `i` of the
    attended values, `i` being `j` moved to head `g` and down `512 q0` rows. -/
theorem attn_block (Q K W : Sm.Idx → EReal)
    (x0 : Vec Ideal S1x512x64 .bf16) (x1 x2 : Vec Ideal S1x2048x64 .bf16) (g q0 : ℕ)
    (e0 : ∀ (y : S1x512x64.Idx) (i : Sm.Idx), (i 0).val = g → (i 1).val = q0 * 512 + (y 1).val → (i 2).val = (y 2).val → x0 y = Q i)
    (e1 : ∀ (y : S1x2048x64.Idx) (i : Sm.Idx), (i 0).val = g → (i 1).val = (y 1).val → (i 2).val = (y 2).val → x1 y = K i)
    (e2 : ∀ (y : S1x2048x64.Idx) (i : Sm.Idx), (i 0).val = g → (i 1).val = (y 1).val → (i 2).val = (y 2).val → x2 y = W i)
    (j : S1x512x64.Idx) (i : Sm.Idx) (h0 : (i 0).val = g) (h1 : (i 1).val = q0 * 512 + (j 1).val) (h2 : (i 2).val = (j 2).val) :
    k3_pay1 (F := Ideal) x0 x1 x2 j = attendM Q K W cK i := by
  obtain ⟨z, r, d, rfl⟩ : ∃ (z : Fin 1) (r : Fin 512) (d : Fin 64), j = ix3 z r d := ⟨j 0, j 1, j 2, eq_ix3 j⟩
  obtain ⟨g', s', d', rfl⟩ : ∃ (g' : Fin 32) (s' : Fin 2048) (d' : Fin 64), i = ix3 g' s' d' := ⟨i 0, i 1, i 2, eq_ix3 i⟩
  obtain rfl : d' = d := Fin.ext h2
  refine (Cert.KernelIdeal.Pay.attn_pay x0 x1 x2 z r d').trans ?_
  show _ = ∑ j : Fin 2048, rowSoftmax (fun j' : Fin 2048 => (∑ e : Fin 64, Q (ix3 g' s' e) * K (ix3 g' j' e)) * cK) j * W (ix3 g' j d')
  refine Finset.sum_congr rfl fun j _ => congrArg₂ (· * ·) ?_ ?_
  · refine congrArg (fun f => rowSoftmax f j) (funext fun j' => ?_)
    refine congrArg (· * cK) (Finset.sum_congr rfl fun e _ => congrArg₂ (· * ·) ?_ ?_)
    · exact e0 (ix3 (0 : Fin 1) r e) (ix3 g' s' e) h0 h1 rfl
    · exact e1 (ix3 (0 : Fin 1) j' e) (ix3 g' j' e) h0 rfl rfl
  · exact e2 (ix3 (0 : Fin 1) j d') (ix3 g' j d') h0 rfl rfl

/-- The printed index maps over the 128 points. -/
theorem idx_facts : ∀ t : Fin cfg3.N,
    win3_0.index t (0 : Fin 3) = win3_3.index t (0 : Fin 3) ∧ win3_0.index t (1 : Fin 3) = win3_3.index t (1 : Fin 3)
    ∧ win3_0.index t (2 : Fin 3) = 0
    ∧ win3_1.index t (0 : Fin 3) = win3_3.index t (0 : Fin 3) ∧ win3_1.index t (1 : Fin 3) = 0 ∧ win3_1.index t (2 : Fin 3) = 0
    ∧ win3_2.index t (0 : Fin 3) = win3_3.index t (0 : Fin 3) ∧ win3_2.index t (1 : Fin 3) = 0 ∧ win3_2.index t (2 : Fin 3) = 0
    ∧ win3_3.index t (2 : Fin 3) = 0 ∧ win3_3.index t (0 : Fin 3) ≤ 31 ∧ win3_3.index t (1 : Fin 3) ≤ 3 :=
  (by decide +kernel : ∀ t : Fin grid3.N, _)

/-- Every block of the output is some point's. -/
theorem idx_onto : ∀ (q0 : Fin 32) (q1 : Fin 4), ∃ t : Fin cfg3.N, win3_3.index t = ![q0.val, q1.val, 0] :=
  (by decide +kernel : ∀ (q0 : Fin 32) (q1 : Fin 4), ∃ t : Fin grid3.N, win3_3.index t = ![q0.val, q1.val, 0])

/-- What point `t` writes back is block `t` of the attended values of the operand arrays as the region found them. -/
theorem flushed_eq (c : Dev nD) (t : Fin cfg3.N) :
    (dat3 V c).flushed 3 t = ((cfg3.win 3).blk t).view.read (Elt Ideal)
      (attendM (V c main_v14) (V c main_v15) (V c main_v16) cK) := by
  show (cfg3.win 3).cut (grid3.coords t) ((dat3 V c).after 3 t) = _
  rw [after3_3]
  unfold out3_3
  rw [View.canon_unit_zero hz3]
  simp only [View.ld_unit_zero (S := S1x512x64) hz3, View.ld_unit_zero (S := S1x2048x64) hz3]
  obtain ⟨e0, e1, e2, e3, e4, e5, e6, e7, e8, e9, e10, e11⟩ := idx_facts t
  funext j
  show k3_pay1 (iblk3 V c 0 t) (iblk3 V c 1 t) (iblk3 V c 2 t) j
    = attendM (V c main_v14) (V c main_v15) (V c main_v16) cK (((cfg3.win 3).blk t).view.emb j)
  have hj0 : (j 0).val < 1 := (j 0).isLt
  refine attn_block (V c main_v14) (V c main_v15) (V c main_v16) (iblk3 V c 0 t) (iblk3 V c 1 t) (iblk3 V c 2 t)
    (win3_3.index t (0 : Fin 3)) (win3_3.index t (1 : Fin 3)) ?_ ?_ ?_ j _ ?_ ?_ ?_
  · intro y i a0 a1 a2
    have hy0 : (y 0).val < 1 := (y 0).isLt
    unfold iblk3
    rw [View.read_apply]
    show V c main_v14 (((cfg3.win 0).blk t).view.emb y) = V c main_v14 i
    refine congrArg _ (funext fun a => Fin.ext ?_)
    match a with
    | ⟨0, _⟩ => show win3_0.index t (0 : Fin 3) * 1 + 1 * (y 0).val = (i 0).val; omega
    | ⟨1, _⟩ => show win3_0.index t (1 : Fin 3) * 512 + 1 * (y 1).val = (i 1).val; omega
    | ⟨2, _⟩ => show win3_0.index t (2 : Fin 3) * 64 + 1 * (y 2).val = (i 2).val; omega
  · intro y i a0 a1 a2
    have hy0 : (y 0).val < 1 := (y 0).isLt
    unfold iblk3
    rw [View.read_apply]
    show V c main_v15 (((cfg3.win 1).blk t).view.emb y) = V c main_v15 i
    refine congrArg _ (funext fun a => Fin.ext ?_)
    match a with
    | ⟨0, _⟩ => show win3_1.index t (0 : Fin 3) * 1 + 1 * (y 0).val = (i 0).val; omega
    | ⟨1, _⟩ => show win3_1.index t (1 : Fin 3) * 2048 + 1 * (y 1).val = (i 1).val; omega
    | ⟨2, _⟩ => show win3_1.index t (2 : Fin 3) * 64 + 1 * (y 2).val = (i 2).val; omega
  · intro y i a0 a1 a2
    have hy0 : (y 0).val < 1 := (y 0).isLt
    unfold iblk3
    rw [View.read_apply]
    show V c main_v16 (((cfg3.win 2).blk t).view.emb y) = V c main_v16 i
    refine congrArg _ (funext fun a => Fin.ext ?_)
    match a with
    | ⟨0, _⟩ => show win3_2.index t (0 : Fin 3) * 1 + 1 * (y 0).val = (i 0).val; omega
    | ⟨1, _⟩ => show win3_2.index t (1 : Fin 3) * 2048 + 1 * (y 1).val = (i 1).val; omega
    | ⟨2, _⟩ => show win3_2.index t (2 : Fin 3) * 64 + 1 * (y 2).val = (i 2).val; omega
  · show win3_3.index t (0 : Fin 3) * 1 + 1 * (j 0).val = win3_3.index t (0 : Fin 3); omega
  · show win3_3.index t (1 : Fin 3) * 512 + 1 * (j 1).val = win3_3.index t (1 : Fin 3) * 512 + (j 1).val; omega
  · show win3_3.index t (2 : Fin 3) * 64 + 1 * (j 2).val = (j 2).val; omega

/-- An index of the array is in point `t`'s block iff each coordinate is in the block's range on its axis. -/
theorem mem_blk (t : Fin cfg3.N) (i : S32x2048x64.Idx) :
    i ∈ ((cfg3.win 3).blk t).view.set ↔ ∀ a : Fin 3, win3_3.index t a * S1x512x64.size a ≤ (i a).val
      ∧ (i a).val < win3_3.index t a * S1x512x64.size a + S1x512x64.size a := by
  show i ∈ ((View.whole main_v17).slice (win3_3.rect t)).set ↔ _
  rw [View.set_slice_whole, Rect.mem_set_unit]
  exact Iff.rfl

/-- The 128 blocks cover the array: row `r` of head `g` is in the block of point (g, r / 512). -/
theorem cover (i : S32x2048x64.Idx) :
    ∃ t : Fin cfg3.N, (cfg3.win 3).flush t = true ∧ i ∈ ((cfg3.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win3_3.index t (0 : Fin 3) = (i 0).val := congrFun ht 0
  have q1 : win3_3.index t (1 : Fin 3) = (i 1).val / 512 := congrFun ht 1
  have q2 : win3_3.index t (2 : Fin 3) = 0 := congrFun ht 2
  refine ⟨t, flush3_3 t, ?_⟩
  rw [mem_blk]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 64 ≤ (i 2).val ∧ (i 2).val < win3_3.index t (2 : Fin 3) * 64 + 64; omega

/-- The output array after the region: the attended values of the operand arrays as the region found them. -/
theorem final (c : Dev nD) :
    (dat3 V c).arrAt 3 cfg3.N = attendM (V c main_v14) (V c main_v15) (V c main_v16) cK :=
  (dat3 V c).arrAt_eq_of_cover 3 _ (fun t _ => flushed_eq V c t) cover

end Cert.KernelIdeal.R3

end
-- ==== Proof.Region4.lean ====
/-
  Region 4 (the output projection), whatever the buffers hold when it is entered: after its 8 grid points — row block
  b of 512 rows — the output array [4096, 1024] holds the dense layer of the three operand arrays as the region found
  them. Point b reads rows 512 b … 512 b + 511 of the input, the whole weight table and the whole bias row, and writes
  those rows of the output; the 8 blocks tile the array.
-/
import proofs.«151448_j37649683317083_2_alg».proof.Proof.Gen.KernelIdeal.Frame
import proofs.«151448_j37649683317083_2_alg».proof.Proof.Payloads

set_option maxRecDepth 16384

noncomputable section

open scoped BigOperators

namespace Cert.KernelIdeal.R4

open Cert.KernelIdeal Cert.KernelIdeal.Gen Idealize.ShloMosaic Idealize.ShloMosaic.TcCoe Idealize.SL.Sem
open Idealize.ShloMosaic.ValueIdx Cert.Mha
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body on a block against the whole arrays: when the input block is rows `512 r0 …` of the input and the other two
    operands are the whole weight table and bias row, entry `j` of the block the body leaves is entry `i` of the layer,
    `i` being `j` moved down `512 r0` rows. -/
theorem lin_block (X : Sf.Idx → EReal) (Wt : Sw.Idx → EReal) (B2 : Sb2.Idx → EReal)
    (x0 : Vec Ideal S512x1024 .bf16) (x1 : Vec Ideal S1024x1024 .bf16) (x2 : Vec Ideal S1x1024 .f32) (r0 : ℕ)
    (e0 : ∀ (y : S512x1024.Idx) (i : Sf.Idx), (i 0).val = r0 * 512 + (y 0).val → (i 1).val = (y 1).val → x0 y = X i)
    (e1 : x1 = Wt) (e2 : x2 = B2)
    (j : S512x1024.Idx) (i : Sf.Idx) (h0 : (i 0).val = r0 * 512 + (j 0).val) (h1 : (i 1).val = (j 1).val) :
    k4_pay1 (F := Ideal) x0 x1 x2 j = linT X Wt B2 i := by
  obtain ⟨r, e, rfl⟩ : ∃ (r : Fin 512) (e : Fin 1024), j = ix2 r e := ⟨j 0, j 1, eq_ix2 j⟩
  obtain ⟨r', e', rfl⟩ : ∃ (r' : Fin 4096) (e' : Fin 1024), i = ix2 r' e' := ⟨i 0, i 1, eq_ix2 i⟩
  obtain rfl : e' = e := Fin.ext h1
  subst e1 e2
  refine (Cert.KernelIdeal.Pay.lin_pay x0 x1 x2 r e').trans ?_
  show _ = (∑ k : Fin 1024, X (ix2 r' k) * x1 (ix2 k e')) + x2 (ix2 (0 : Fin 1) e')
  refine congrArg (· + x2 (ix2 (0 : Fin 1) e')) (Finset.sum_congr rfl fun k _ => congrArg (· * x1 (ix2 k e')) ?_)
  exact e0 (ix2 r k) (ix2 r' k) h0 rfl

/-- The printed index maps over the 8 points. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 7 :=
  (by decide +kernel : ∀ t : Fin grid4.N, _)

/-- Every block of the output is some point's. -/
theorem idx_onto : ∀ (q0 : Fin 8), ∃ t : Fin cfg4.N, win4_3.index t = ![q0.val, 0] :=
  (by decide +kernel : ∀ (q0 : Fin 8), ∃ t : Fin grid4.N, win4_3.index t = ![q0.val, 0])

/-- What point `t` writes back is block `t` of the layer of the operand arrays as the region found them. -/
theorem flushed_eq (c : Dev nD) (t : Fin cfg4.N) :
    (dat4 V c).flushed 3 t = ((cfg4.win 3).blk t).view.read (Elt Ideal)
      (linT (V c main_v20) (V c main_v7) (V c main_v21)) := by
  show (cfg4.win 3).cut (grid4.coords t) ((dat4 V c).after 3 t) = _
  rw [after4_3]
  unfold out4_3
  rw [View.canon_unit_zero hz2]
  simp only [View.ld_unit_zero (S := S512x1024) hz2, View.ld_unit_zero (S := S1024x1024) hz2, View.ld_unit_zero (S := S1x1024) hz2]
  obtain ⟨e0, e1, e2, e3, e4, e5, e6, e7⟩ := idx_facts t
  funext j
  show k4_pay1 (iblk4 V c 0 t) (iblk4 V c 1 t) (iblk4 V c 2 t) j
    = linT (V c main_v20) (V c main_v7) (V c main_v21) (((cfg4.win 3).blk t).view.emb j)
  refine lin_block (V c main_v20) (V c main_v7) (V c main_v21) (iblk4 V c 0 t) (iblk4 V c 1 t) (iblk4 V c 2 t)
    (win4_3.index t (0 : Fin 2)) ?_ ?_ ?_ j _ ?_ ?_
  · intro y i a0 a1
    unfold iblk4
    rw [View.read_apply]
    show V c main_v20 (((cfg4.win 0).blk t).view.emb y) = V c main_v20 i
    refine congrArg _ (funext fun a => Fin.ext ?_)
    match a with
    | ⟨0, _⟩ => show win4_0.index t (0 : Fin 2) * 512 + 1 * (y 0).val = (i 0).val; omega
    | ⟨1, _⟩ => show win4_0.index t (1 : Fin 2) * 1024 + 1 * (y 1).val = (i 1).val; omega
  · funext y
    unfold iblk4
    rw [View.read_apply]
    show V c main_v7 (((cfg4.win 1).blk t).view.emb y) = V c main_v7 y
    refine congrArg _ (funext fun a => Fin.ext ?_)
    match a with
    | ⟨0, _⟩ => show win4_1.index t (0 : Fin 2) * 1024 + 1 * (y 0).val = (y 0).val; omega
    | ⟨1, _⟩ => show win4_1.index t (1 : Fin 2) * 1024 + 1 * (y 1).val = (y 1).val; omega
  · funext y
    unfold iblk4
    rw [View.read_apply]
    show V c main_v21 (((cfg4.win 2).blk t).view.emb y) = V c main_v21 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 1024 + 1 * (y 1).val = (y 1).val; omega
  · show win4_3.index t (0 : Fin 2) * 512 + 1 * (j 0).val = win4_3.index t (0 : Fin 2) * 512 + (j 0).val; omega
  · show win4_3.index t (1 : Fin 2) * 1024 + 1 * (j 1).val = (j 1).val; omega

/-- An index of the array is in point `t`'s block iff each coordinate is in the block's range on its axis. -/
theorem mem_blk (t : Fin cfg4.N) (i : S4096x1024.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v22).slice (win4_3.rect t)).set ↔ _
  rw [View.set_slice_whole, Rect.mem_set_unit]
  exact Iff.rfl

/-- The 8 blocks cover the array: row `r` is in the block of point r / 512. -/
theorem cover (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ := idx_onto ⟨(i 0).val / 512, by omega⟩
  have q0 : win4_3.index t (0 : Fin 2) = (i 0).val / 512 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- The output array after the region: the dense layer of the operand arrays as the region found them. -/
theorem final (c : Dev nD) :
    (dat4 V c).arrAt 3 cfg4.N = linT (V c main_v20) (V c main_v7) (V c main_v21) :=
  (dat4 V c).arrAt_eq_of_cover 3 _ (fun t _ => flushed_eq V c t) cover

end Cert.KernelIdeal.R4

end
-- ==== Proof.Layout.lean ====
/-
  The re-layings between the kernels, read at one entry.

  Merging batch entry and head into one axis of 32 is a reshape [2, 16, 2048, 64] → [32, 2048, 64] (`merge_cast`): both
  orders list the numbers batch entry first, then head, row, feature.

  The attended values [32, 2048, 64] reach the last dense layer through three reshapes, → [2, 16, 2048, 64] → [2, 2048, 1024]
  → [4096, 1024], and its result leaves through one more, [4096, 1024] → [2, 2048, 1024]. A reshape keeps the row-major
  position, so row 2048 n + s, column k of the [4096, 1024] matrix is the number at position 1024 s + k of batch entry n,
  heads outermost: `cat n s k`. With the input-major weight table and the one-row bias read back as the output-major
  table and the bias vector, the dense layer on those rows is `outProj` (`out_eq`).
-/
import Idealize.ShloMosaic.Lib.Pipeline.Value
import Idealize.ShloMosaic.Lib.ValueIdx
import proofs.«151448_j37649683317083_2_alg».proof.Proof.Spec

noncomputable section

open scoped BigOperators

namespace Cert.Mha

open Idealize.ShloMosaic Idealize.ShloMosaic.ValueIdx

/-- The reshape [2, 16, 2048, 64] → [32, 2048, 64] is `merge`. -/
theorem merge_cast (X : Sh.Idx → EReal) (h : Sh.ShapeCasts Sm) : shapeCast Sm X h = merge X := by
  funext i
  obtain ⟨g, s, d, rfl⟩ : ∃ (g : Fin 32) (s : Fin 2048) (d : Fin 64), i = ix3 g s d := ⟨i 0, i 1, i 2, eq_ix3 i⟩
  have := g.isLt
  refine shapeCast_apply X h (ix3 g s d) _ ?_
  rw [Shape.rowMajor_val_four, Shape.rowMajor_val_three]
  show ((g.val / 16 * 16 + g.val % 16) * 2048 + s.val) * 64 + d.val = (g.val * 2048 + s.val) * 64 + d.val
  omega

/-- Row `2048 n + s` of the [4096, 1024] matrix. -/
def row (n : Fin 2) (s : Fin 2048) : Fin 4096 := ⟨n.val * 2048 + s.val, by have := n.isLt; have := s.isLt; omega⟩

/-- The merged array read through the three reshapes at row `2048 n + s`, column `k`. -/
theorem flat_read (A : Sh.Idx → EReal) (h1 : Sm.ShapeCasts Sh) (h2 : Sh.ShapeCasts Sx) (h3 : Sx.ShapeCasts Sf)
    (n : Fin 2) (s : Fin 2048) (k : Fin 1024) :
    shapeCast Sf (shapeCast Sx (shapeCast Sh (merge A) h1) h2) h3 (ix2 (row n s) k) = A (cat n s k) := by
  have hn := n.isLt; have hs := s.isLt; have hk := k.isLt
  refine (shapeCast_apply _ h3 (ix2 (row n s) k) (ix3 n s k) ?_).trans ?_
  · rw [Shape.rowMajor_val_three, Shape.rowMajor_val_two]
    rfl
  refine (shapeCast_apply _ h2 (ix3 n s k) (cat n s k) ?_).trans ?_
  · rw [Shape.rowMajor_val_four, Shape.rowMajor_val_three]
    show ((n.val * 16 + (s.val * 1024 + k.val) / 131072) * 2048 + (s.val * 1024 + k.val) / 64 % 2048) * 64
        + (s.val * 1024 + k.val) % 64 = (n.val * 2048 + s.val) * 1024 + k.val
    omega
  refine (shapeCast_apply (merge A) h1 (cat n s k)
    (ix3 (⟨n.val * 16 + (s.val * 1024 + k.val) / 131072, by omega⟩ : Fin 32)
      (⟨(s.val * 1024 + k.val) / 64 % 2048, Nat.mod_lt _ (by decide)⟩ : Fin 2048)
      (⟨(s.val * 1024 + k.val) % 64, Nat.mod_lt _ (by decide)⟩ : Fin 64)) ?_).trans ?_
  · rw [Shape.rowMajor_val_three, Shape.rowMajor_val_four]
    rfl
  · show A _ = A _
    refine congrArg A (funext fun a => Fin.ext ?_)
    match a with
    | ⟨0, _⟩ => show (n.val * 16 + (s.val * 1024 + k.val) / 131072) / 16 = n.val; omega
    | ⟨1, _⟩ => show (n.val * 16 + (s.val * 1024 + k.val) / 131072) % 16 = (s.val * 1024 + k.val) / 131072; omega
    | ⟨2, _⟩ => rfl
    | ⟨3, _⟩ => rfl

/-- The last dense layer on the flat-read attended values, re-laid [4096, 1024] → [2, 2048, 1024], is `outProj`. -/
theorem out_eq (A : Sh.Idx → EReal) (Wt W : Sw.Idx → EReal) (b2 : Sb2.Idx → EReal) (b : Sb.Idx → EReal)
    (h1 : Sm.ShapeCasts Sh) (h2 : Sh.ShapeCasts Sx) (h3 : Sx.ShapeCasts Sf) (h4 : Sf.ShapeCasts Sx)
    (hW : ∀ (k e : Fin 1024), Wt (ix2 k e) = W (ix2 e k)) (hb : ∀ e : Fin 1024, b2 (ix2 (0 : Fin 1) e) = b (ix1 e)) :
    shapeCast Sx (linT (shapeCast Sf (shapeCast Sx (shapeCast Sh (merge A) h1) h2) h3) Wt b2) h4 = outProj A W b := by
  funext i
  obtain ⟨n, s, e, rfl⟩ : ∃ (n : Fin 2) (s : Fin 2048) (e : Fin 1024), i = ix3 n s e := ⟨i 0, i 1, i 2, eq_ix3 i⟩
  refine (shapeCast_apply _ h4 (ix3 n s e) (ix2 (row n s) e) ?_).trans ?_
  · rw [Shape.rowMajor_val_two, Shape.rowMajor_val_three]
    rfl
  show (∑ k : Fin 1024, shapeCast Sf (shapeCast Sx (shapeCast Sh (merge A) h1) h2) h3 (ix2 (row n s) k) * Wt (ix2 k e))
      + b2 (ix2 (0 : Fin 1) e)
    = (∑ k : Fin 1024, A (cat n s k) * W (ix2 e k)) + b (ix1 e)
  rw [hb]
  exact congrArg (· + b (ix1 e)) (Finset.sum_congr rfl fun k _ => by rw [flat_read, hW])

end Cert.Mha

end
-- ==== Proof.KernelValue.lean ====
/-
  The kernel program's result as multi-head attention of its eleven arguments.

  The program is five regions among stretches of host operations. The buffer contents at each boundary are a fold over
  the launch memory: a host stretch writes its own results and leaves every other buffer; a region leaves its output
  array at what its write-backs leave and every other buffer as entered. Read through that fold:
  * each region finds its x operand at an argument (or at an earlier region's output re-laid), its weight operand at
    the narrowed transpose of a weight argument — entry (k, e) of it is the argument's entry (e, k) — and its bias
    operand at a bias argument laid as one row;
  * regions 0, 1, 2 leave the three projections into heads; region 3, on the three projections with batch entry and
    head merged, leaves the attended values merged the same way; region 4, on the attended values read flat as a
    [4096, 1024] matrix, leaves the output projection, which the last reshape lays as [2, 2048, 1024].
-/
import proofs.«151448_j37649683317083_2_alg».proof.Proof.Gen.KernelIdeal.Frame
import proofs.«151448_j37649683317083_2_alg».proof.Proof.Region0
import proofs.«151448_j37649683317083_2_alg».proof.Proof.Region1
import proofs.«151448_j37649683317083_2_alg».proof.Proof.Region2
import proofs.«151448_j37649683317083_2_alg».proof.Proof.Region3
import proofs.«151448_j37649683317083_2_alg».proof.Proof.Region4
import proofs.«151448_j37649683317083_2_alg».proof.Proof.Layout
import Idealize.ShloMosaic.Lib.StableHlo.Run
import Idealize.ShloMosaic.Lib.ValueLayout

set_option maxRecDepth 16384

noncomputable section

open scoped BigOperators

namespace Cert.KernelIdeal.KV

open Cert.KernelIdeal Cert.KernelIdeal.Gen Idealize.ShloMosaic Idealize.ShloMosaic.TcCoe Idealize.SL.Sem
open Idealize.ShloMosaic.StableHlo Idealize.ShloMosaic.ValueIdx Cert.Mha

variable (m : (ℓ : Loc nD τ sig) → Buf (Elt Ideal) ℓ) (ρ : Dev nD → PrngReg) (c : Dev nD)

/-- A buffer that no operation of a host stretch writes keeps its contents through the stretch. -/
local macro "skip_host" ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The operands each region finds -/

theorem W1_main_arg0 : W1 m ρ c (Proc.devRef .tc main_arg0) = m ((c : Thread nD τ).loc main_arg0) :=
  (skip_host hostOps0 main_arg0)

theorem W3_main_arg1 : W3 m ρ c (Proc.devRef .tc main_arg1) = m ((c : Thread nD τ).loc main_arg1) :=
  ((skip_host hostOps1 main_arg1).trans ((W2_of_ne m ρ c main_arg1 (by decide)).trans (skip_host hostOps0 main_arg1)))

theorem W5_main_arg2 : W5 m ρ c (Proc.devRef .tc main_arg2) = m ((c : Thread nD τ).loc main_arg2) :=
  ((skip_host hostOps2 main_arg2).trans ((W4_of_ne m ρ c main_arg2 (by decide)).trans ((skip_host hostOps1 main_arg2).trans ((W2_of_ne m ρ c main_arg2 (by decide)).trans (skip_host hostOps0 main_arg2)))))

/-- The narrowed transpose of a weight table, read at (k, e): the table at (e, k). -/
theorem W1_main_v1_apply (k e : Fin 1024) :
    (W1 m ρ c (Proc.devRef .tc main_v1) : S1024x1024.Idx → EReal) (ix2 k e) = (m ((c : Thread nD τ).loc main_arg3) : S1024x1024.Idx → EReal) (ix2 e k) := by
  have e1 : W1 m ρ c (Proc.devRef .tc main_v1)
      = (truncf .bf16 (transpose S1024x1024 [1, 0] (m ((c : Thread nD τ).loc main_arg3) : FVec Ideal S1024x1024 .f32) transposes_S1024x1024_S1024x1024_1_0) bitsLt_bf16_f32 : FVec Ideal S1024x1024 .bf16) := by
    show StableHlo.after hostOps0 (W0 m ρ c) (Proc.devRef .tc main_v1) = _
    after_results <;> rfl
  have e2 : W1 m ρ c (Proc.devRef .tc main_v1) = W1 m ρ c (Proc.devRef .tc main_v1) := rfl
  rw [e2, e1]
  exact transpose_ix2_apply _ _ k e

/-- The narrowed transpose of a weight table, read at (k, e): the table at (e, k). -/
theorem W3_main_v3_apply (k e : Fin 1024) :
    (W3 m ρ c (Proc.devRef .tc main_v3) : S1024x1024.Idx → EReal) (ix2 k e) = (m ((c : Thread nD τ).loc main_arg5) : S1024x1024.Idx → EReal) (ix2 e k) := by
  have e1 : W1 m ρ c (Proc.devRef .tc main_v3)
      = (truncf .bf16 (transpose S1024x1024 [1, 0] (m ((c : Thread nD τ).loc main_arg5) : FVec Ideal S1024x1024 .f32) transposes_S1024x1024_S1024x1024_1_0) bitsLt_bf16_f32 : FVec Ideal S1024x1024 .bf16) := by
    show StableHlo.after hostOps0 (W0 m ρ c) (Proc.devRef .tc main_v3) = _
    after_results <;> rfl
  have e2 : W3 m ρ c (Proc.devRef .tc main_v3) = W1 m ρ c (Proc.devRef .tc main_v3) := ((skip_host hostOps1 main_v3).trans (W2_of_ne m ρ c main_v3 (by decide)))
  rw [e2, e1]
  exact transpose_ix2_apply _ _ k e

/-- The narrowed transpose of a weight table, read at (k, e): the table at (e, k). -/
theorem W5_main_v5_apply (k e : Fin 1024) :
    (W5 m ρ c (Proc.devRef .tc main_v5) : S1024x1024.Idx → EReal) (ix2 k e) = (m ((c : Thread nD τ).loc main_arg7) : S1024x1024.Idx → EReal) (ix2 e k) := by
  have e1 : W1 m ρ c (Proc.devRef .tc main_v5)
      = (truncf .bf16 (transpose S1024x1024 [1, 0] (m ((c : Thread nD τ).loc main_arg7) : FVec Ideal S1024x1024 .f32) transposes_S1024x1024_S1024x1024_1_0) bitsLt_bf16_f32 : FVec Ideal S1024x1024 .bf16) := by
    show StableHlo.after hostOps0 (W0 m ρ c) (Proc.devRef .tc main_v5) = _
    after_results <;> rfl
  have e2 : W5 m ρ c (Proc.devRef .tc main_v5) = W1 m ρ c (Proc.devRef .tc main_v5) := ((skip_host hostOps2 main_v5).trans ((W4_of_ne m ρ c main_v5 (by decide)).trans ((skip_host hostOps1 main_v5).trans (W2_of_ne m ρ c main_v5 (by decide)))))
  rw [e2, e1]
  exact transpose_ix2_apply _ _ k e

/-- The narrowed transpose of a weight table, read at (k, e): the table at (e, k). -/
theorem W9_main_v7_apply (k e : Fin 1024) :
    (W9 m ρ c (Proc.devRef .tc main_v7) : S1024x1024.Idx → EReal) (ix2 k e) = (m ((c : Thread nD τ).loc main_arg9) : S1024x1024.Idx → EReal) (ix2 e k) := by
  have e1 : W1 m ρ c (Proc.devRef .tc main_v7)
      = (truncf .bf16 (transpose S1024x1024 [1, 0] (m ((c : Thread nD τ).loc main_arg9) : FVec Ideal S1024x1024 .f32) transposes_S1024x1024_S1024x1024_1_0) bitsLt_bf16_f32 : FVec Ideal S1024x1024 .bf16) := by
    show StableHlo.after hostOps0 (W0 m ρ c) (Proc.devRef .tc main_v7) = _
    after_results <;> rfl
  have e2 : W9 m ρ c (Proc.devRef .tc main_v7) = W1 m ρ c (Proc.devRef .tc main_v7) := ((skip_host hostOps4 main_v7).trans ((W8_of_ne m ρ c main_v7 (by decide)).trans ((skip_host hostOps3 main_v7).trans ((W6_of_ne m ρ c main_v7 (by decide)).trans ((skip_host hostOps2 main_v7).trans ((W4_of_ne m ρ c main_v7 (by decide)).trans ((skip_host hostOps1 main_v7).trans (W2_of_ne m ρ c main_v7 (by decide)))))))))
  rw [e2, e1]
  exact transpose_ix2_apply _ _ k e

/-- The bias vector laid as one row, read at (0, e): the vector at e. -/
theorem W1_main_v8_apply (e : Fin 1024) :
    (W1 m ρ c (Proc.devRef .tc main_v8) : S1x1024.Idx → EReal) (ix2 (0 : Fin 1) e) = (m ((c : Thread nD τ).loc main_arg4) : S1024.Idx → EReal) (ix1 e) := by
  have e1 : W1 m ρ c (Proc.devRef .tc main_v8) = shapeCast S1x1024 (W0 m ρ c (Proc.devRef .tc main_arg4)) shapeCasts_S1024_S1x1024 := by
    show StableHlo.after hostOps0 (W0 m ρ c) (Proc.devRef .tc main_v8) = _
    after_results <;> rfl
  have e2 : W0 m ρ c (Proc.devRef .tc main_arg4) = m ((c : Thread nD τ).loc main_arg4) := rfl
  rw [e1, e2]
  exact shapeCast_a_1a_apply _ _ (0 : Fin 1) e

/-- The bias vector laid as one row, read at (0, e): the vector at e. -/
theorem W3_main_v10_apply (e : Fin 1024) :
    (W3 m ρ c (Proc.devRef .tc main_v10) : S1x1024.Idx → EReal) (ix2 (0 : Fin 1) e) = (m ((c : Thread nD τ).loc main_arg6) : S1024.Idx → EReal) (ix1 e) := by
  have e1 : W3 m ρ c (Proc.devRef .tc main_v10) = shapeCast S1x1024 (W2 m ρ c (Proc.devRef .tc main_arg6)) shapeCasts_S1024_S1x1024 := by
    show StableHlo.after hostOps1 (W2 m ρ c) (Proc.devRef .tc main_v10) = _
    after_results <;> rfl
  have e2 : W2 m ρ c (Proc.devRef .tc main_arg6) = m ((c : Thread nD τ).loc main_arg6) := ((W2_of_ne m ρ c main_arg6 (by decide)).trans (skip_host hostOps0 main_arg6))
  rw [e1, e2]
  exact shapeCast_a_1a_apply _ _ (0 : Fin 1) e

/-- The bias vector laid as one row, read at (0, e): the vector at e. -/
theorem W5_main_v12_apply (e : Fin 1024) :
    (W5 m ρ c (Proc.devRef .tc main_v12) : S1x1024.Idx → EReal) (ix2 (0 : Fin 1) e) = (m ((c : Thread nD τ).loc main_arg8) : S1024.Idx → EReal) (ix1 e) := by
  have e1 : W5 m ρ c (Proc.devRef .tc main_v12) = shapeCast S1x1024 (W4 m ρ c (Proc.devRef .tc main_arg8)) shapeCasts_S1024_S1x1024 := by
    show StableHlo.after hostOps2 (W4 m ρ c) (Proc.devRef .tc main_v12) = _
    after_results <;> rfl
  have e2 : W4 m ρ c (Proc.devRef .tc main_arg8) = m ((c : Thread nD τ).loc main_arg8) := ((W4_of_ne m ρ c main_arg8 (by decide)).trans ((skip_host hostOps1 main_arg8).trans ((W2_of_ne m ρ c main_arg8 (by decide)).trans (skip_host hostOps0 main_arg8))))
  rw [e1, e2]
  exact shapeCast_a_1a_apply _ _ (0 : Fin 1) e

/-- The bias vector laid as one row, read at (0, e): the vector at e. -/
theorem W9_main_v21_apply (e : Fin 1024) :
    (W9 m ρ c (Proc.devRef .tc main_v21) : S1x1024.Idx → EReal) (ix2 (0 : Fin 1) e) = (m ((c : Thread nD τ).loc main_arg10) : S1024.Idx → EReal) (ix1 e) := by
  have e1 : W9 m ρ c (Proc.devRef .tc main_v21) = shapeCast S1x1024 (W8 m ρ c (Proc.devRef .tc main_arg10)) shapeCasts_S1024_S1x1024 := by
    show StableHlo.after hostOps4 (W8 m ρ c) (Proc.devRef .tc main_v21) = _
    after_results <;> rfl
  have e2 : W8 m ρ c (Proc.devRef .tc main_arg10) = m ((c : Thread nD τ).loc main_arg10) := ((W8_of_ne m ρ c main_arg10 (by decide)).trans ((skip_host hostOps3 main_arg10).trans ((W6_of_ne m ρ c main_arg10 (by decide)).trans ((skip_host hostOps2 main_arg10).trans ((W4_of_ne m ρ c main_arg10 (by decide)).trans ((skip_host hostOps1 main_arg10).trans ((W2_of_ne m ρ c main_arg10 (by decide)).trans (skip_host hostOps0 main_arg10))))))))
  rw [e1, e2]
  exact shapeCast_a_1a_apply _ _ (0 : Fin 1) e

/-! ## The three projections -/

/-- Region 0 leaves the query projection. -/
theorem Q_eq : W2 m ρ c (Proc.devRef .tc main_v9)
    = projHeads (m ((c : Thread nD τ).loc main_arg0)) (m ((c : Thread nD τ).loc main_arg3)) (m ((c : Thread nD τ).loc main_arg4)) :=
  (W2_arr m ρ c 3).trans ((Cert.KernelIdeal.R0.final (V1 m ρ) c).trans
    ((congrArg (fun x => projHeadsT x (V1 m ρ c main_v1) (V1 m ρ c main_v8)) (W1_main_arg0 m ρ c)).trans
      (projHeadsT_eq _ _ _ _ _ (W1_main_v1_apply m ρ c) (W1_main_v8_apply m ρ c))))

/-- Region 1 leaves the key projection. -/
theorem K_eq : W4 m ρ c (Proc.devRef .tc main_v11)
    = projHeads (m ((c : Thread nD τ).loc main_arg1)) (m ((c : Thread nD τ).loc main_arg5)) (m ((c : Thread nD τ).loc main_arg6)) :=
  (W4_arr m ρ c 3).trans ((Cert.KernelIdeal.R1.final (V3 m ρ) c).trans
    ((congrArg (fun x => projHeadsT x (V3 m ρ c main_v3) (V3 m ρ c main_v10)) (W3_main_arg1 m ρ c)).trans
      (projHeadsT_eq _ _ _ _ _ (W3_main_v3_apply m ρ c) (W3_main_v10_apply m ρ c))))

/-- Region 2 leaves the value projection. -/
theorem V_eq : W6 m ρ c (Proc.devRef .tc main_v13)
    = projHeads (m ((c : Thread nD τ).loc main_arg2)) (m ((c : Thread nD τ).loc main_arg7)) (m ((c : Thread nD τ).loc main_arg8)) :=
  (W6_arr m ρ c 3).trans ((Cert.KernelIdeal.R2.final (V5 m ρ) c).trans
    ((congrArg (fun x => projHeadsT x (V5 m ρ c main_v5) (V5 m ρ c main_v12)) (W5_main_arg2 m ρ c)).trans
      (projHeadsT_eq _ _ _ _ _ (W5_main_v5_apply m ρ c) (W5_main_v12_apply m ρ c))))

/-! ## The attention -/

/-- Region 3 finds the three projections with batch entry and head merged. -/
theorem W7_main_v14 : W7 m ρ c (Proc.devRef .tc main_v14) = merge (W2 m ρ c (Proc.devRef .tc main_v9)) := by
  have e1 : W7 m ρ c (Proc.devRef .tc main_v14)
      = shapeCast S32x2048x64 (W6 m ρ c (Proc.devRef .tc main_v9)) shapeCasts_S2x16x2048x64_S32x2048x64 := by
    show StableHlo.after hostOps3 (W6 m ρ c) (Proc.devRef .tc main_v14) = _
    after_results <;> rfl
  have e2 : W6 m ρ c (Proc.devRef .tc main_v9) = W2 m ρ c (Proc.devRef .tc main_v9) := ((W6_of_ne m ρ c main_v9 (by decide)).trans ((skip_host hostOps2 main_v9).trans ((W4_of_ne m ρ c main_v9 (by decide)).trans (skip_host hostOps1 main_v9))))
  rw [e1, e2]
  exact merge_cast _ _

theorem W7_main_v15 : W7 m ρ c (Proc.devRef .tc main_v15) = merge (W4 m ρ c (Proc.devRef .tc main_v11)) := by
  have e1 : W7 m ρ c (Proc.devRef .tc main_v15)
      = shapeCast S32x2048x64 (W6 m ρ c (Proc.devRef .tc main_v11)) shapeCasts_S2x16x2048x64_S32x2048x64 := by
    show StableHlo.after hostOps3 (W6 m ρ c) (Proc.devRef .tc main_v15) = _
    after_results <;> rfl
  have e2 : W6 m ρ c (Proc.devRef .tc main_v11) = W4 m ρ c (Proc.devRef .tc main_v11) := ((W6_of_ne m ρ c main_v11 (by decide)).trans (skip_host hostOps2 main_v11))
  rw [e1, e2]
  exact merge_cast _ _

theorem W7_main_v16 : W7 m ρ c (Proc.devRef .tc main_v16) = merge (W6 m ρ c (Proc.devRef .tc main_v13)) := by
  have e1 : W7 m ρ c (Proc.devRef .tc main_v16)
      = shapeCast S32x2048x64 (W6 m ρ c (Proc.devRef .tc main_v13)) shapeCasts_S2x16x2048x64_S32x2048x64 := by
    show StableHlo.after hostOps3 (W6 m ρ c) (Proc.devRef .tc main_v16) = _
    after_results <;> rfl
  rw [e1]
  exact merge_cast _ _

/-- Region 3 leaves the attended values, batch entry and head merged. -/
theorem A_eq : W8 m ρ c (Proc.devRef .tc main_v17)
    = merge (attend (W2 m ρ c (Proc.devRef .tc main_v9)) (W4 m ρ c (Proc.devRef .tc main_v11))
        (W6 m ρ c (Proc.devRef .tc main_v13)) (Ideal.ofBits .f32 0x3E000000#32)) := by
  refine (W8_arr m ρ c 3).trans ((Cert.KernelIdeal.R3.final (V7 m ρ) c).trans ?_)
  show attendM (W7 m ρ c (Proc.devRef .tc main_v14)) (W7 m ρ c (Proc.devRef .tc main_v15)) (W7 m ρ c (Proc.devRef .tc main_v16)) _ = _
  rw [W7_main_v14, W7_main_v15, W7_main_v16]
  exact attendM_merge _ _ _ _

/-! ## The output projection -/

/-- Region 4 finds the attended values through three reshapes. -/
theorem W9_main_v20 : W9 m ρ c (Proc.devRef .tc main_v20)
    = shapeCast S4096x1024 (shapeCast S2x2048x1024 (shapeCast S2x16x2048x64 (W8 m ρ c (Proc.devRef .tc main_v17))
        shapeCasts_S32x2048x64_S2x16x2048x64) shapeCasts_S2x16x2048x64_S2x2048x1024) shapeCasts_S2x2048x1024_S4096x1024 := by
  show StableHlo.after hostOps4 (W8 m ρ c) (Proc.devRef .tc main_v20) = _
  after_results <;> rfl

/-- The result buffer is region 4's output re-laid. -/
theorem W11_main_v23 : W11 m ρ c (Proc.devRef .tc main_v23)
    = shapeCast S2x2048x1024 (W10 m ρ c (Proc.devRef .tc main_v22)) shapeCasts_S4096x1024_S2x2048x1024 := by
  show StableHlo.after hostOps5 (W10 m ρ c) (Proc.devRef .tc main_v23) = _
  after_results <;> rfl

/-- THE KERNEL PROGRAM'S RESULT: multi-head attention of the eleven arguments at the scale 1/8. -/
theorem result_eq : W11 m ρ c (Proc.devRef .tc main_v23)
    = mha (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (Ideal.ofBits .f32 0x3E000000#32) := by
  have hO : W10 m ρ c (Proc.devRef .tc main_v22)
      = linT (W9 m ρ c (Proc.devRef .tc main_v20)) (W9 m ρ c (Proc.devRef .tc main_v7)) (W9 m ρ c (Proc.devRef .tc main_v21)) :=
    (W10_arr m ρ c 3).trans (Cert.KernelIdeal.R4.final (V9 m ρ) c)
  rw [W11_main_v23, hO, W9_main_v20, A_eq]
  unfold mha
  rw [← Q_eq m ρ c, ← K_eq m ρ c, ← V_eq m ρ c]
  exact out_eq _ _ _ _ _ _ _ _ _ (W9_main_v7_apply m ρ c) (W9_main_v21_apply m ρ c)

end Cert.KernelIdeal.KV

end
-- ==== Proof.RefValue.lean ====
/-
  The reference program's result, stage by stage, as the multi-head attention function of its eleven arguments.

  Its three projections are `projHeads` (a product contracting the model axis against an output-major table, the bias
  broadcast over batch and rows, the model axis split 16 × 64, heads moved outward). Its scores are the per-head
  products of query and key rows times 1 / √64; its softmax along the key axis is written out — a maximum from −∞ (and
  one more maximum with −∞, which changes nothing), the shifted exponentials, their sum from 0, the quotient —; the
  attended values are the per-head products with the value rows; and the last projection reads the attended array flat
  per batch entry (a reshape [2, 16, 2048, 64] → [2, 2048, 1024]) against the output table. Each stage is read at one
  entry and met with the specification's entry; the scale 1 / √64 is the word of 1/8.
-/
import proofs.«151448_j37649683317083_2_alg».proof.Proof.Gen.ReferenceIdeal.Read
import proofs.«151448_j37649683317083_2_alg».proof.Proof.Spec
import proofs.«151448_j37649683317083_2_alg».proof.Proof.LibRowSoftmax

set_option maxRecDepth 16384

noncomputable section

open scoped BigOperators

namespace Cert.ReferenceIdeal.RefV

open Cert.ReferenceIdeal Cert.ReferenceIdeal.Gen Cert.ReferenceIdeal.Read
open Idealize.ShloMosaic Idealize.ShloMosaic.ValueIdx Cert.Mha Cert.RowSoftmax

abbrev A3 := (⟨S2x2048x1024, .f32⟩ : BufTy).Contents (Elt Ideal)
abbrev AW := (⟨S1024x1024, .f32⟩ : BufTy).Contents (Elt Ideal)
abbrev AB := (⟨S1024, .f32⟩ : BufTy).Contents (Elt Ideal)

/-! ## The three projections -/

theorem proj_idx_v5 (n : Fin 2) (h : Fin 16) (s : Fin 2048) (d : Fin 64) :
    idx_main_v4 (idx_main_v5 (ix4 n h s d)) = ix3 n s (hd h d) := by
  funext a; apply Fin.ext
  have := n.isLt; have := h.isLt; have := s.isLt; have := d.isLt
  match a with
  | ⟨0, _⟩ => show (((n.val * 2048 + s.val) * 16 + h.val) * 64 + d.val) / 2097152 = n.val; omega
  | ⟨1, _⟩ => show (((n.val * 2048 + s.val) * 16 + h.val) * 64 + d.val) / 1024 % 2048 = s.val; omega
  | ⟨2, _⟩ => show (((n.val * 2048 + s.val) * 16 + h.val) * 64 + d.val) % 1024 = h.val * 64 + d.val; omega

/-- The host's projection into heads (product, bias by two broadcasts, reshape, transpose) is `projHeads`. -/
theorem v5_eq (x : A3) (W : AW) (b : AB) : val_main_v5 (F := Ideal) x W b = projHeads x W b := by
  funext i
  obtain ⟨n, h, s, d, rfl⟩ : ∃ (n : Fin 2) (h : Fin 16) (s : Fin 2048) (d : Fin 64), i = ix4 n h s d := ⟨i 0, i 1, i 2, i 3, eq_ix4 i⟩
  rw [val_main_v5_apply, val_main_v4_apply, proj_idx_v5, val_main_v3_apply, val_main_v0_apply, val_main_v2_apply, val_main_v1_apply]
  show (∑ k : Fin 1024, x (lidx_main_v0 (ix3 n s (hd h d)) k) * W (ridx_main_v0 (ix3 n s (hd h d)) k))
      + b (idx_main_v1 (idx_main_v2 (ix3 n s (hd h d))))
    = (∑ k : Fin 1024, x (ix3 n s k) * W (ix2 (hd h d) k)) + b (ix1 (hd h d))
  refine congrArg₂ (· + ·) (Finset.sum_congr rfl fun k _ => congrArg₂ (· * ·) (congrArg x ?_) (congrArg W ?_)) (congrArg b ?_)
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl

theorem proj_idx_v11 (n : Fin 2) (h : Fin 16) (s : Fin 2048) (d : Fin 64) :
    idx_main_v10 (idx_main_v11 (ix4 n h s d)) = ix3 n s (hd h d) := by
  funext a; apply Fin.ext
  have := n.isLt; have := h.isLt; have := s.isLt; have := d.isLt
  match a with
  | ⟨0, _⟩ => show (((n.val * 2048 + s.val) * 16 + h.val) * 64 + d.val) / 2097152 = n.val; omega
  | ⟨1, _⟩ => show (((n.val * 2048 + s.val) * 16 + h.val) * 64 + d.val) / 1024 % 2048 = s.val; omega
  | ⟨2, _⟩ => show (((n.val * 2048 + s.val) * 16 + h.val) * 64 + d.val) % 1024 = h.val * 64 + d.val; omega

/-- The host's projection into heads (product, bias by two broadcasts, reshape, transpose) is `projHeads`. -/
theorem v11_eq (x : A3) (W : AW) (b : AB) : val_main_v11 (F := Ideal) x W b = projHeads x W b := by
  funext i
  obtain ⟨n, h, s, d, rfl⟩ : ∃ (n : Fin 2) (h : Fin 16) (s : Fin 2048) (d : Fin 64), i = ix4 n h s d := ⟨i 0, i 1, i 2, i 3, eq_ix4 i⟩
  rw [val_main_v11_apply, val_main_v10_apply, proj_idx_v11, val_main_v9_apply, val_main_v6_apply, val_main_v8_apply, val_main_v7_apply]
  show (∑ k : Fin 1024, x (lidx_main_v6 (ix3 n s (hd h d)) k) * W (ridx_main_v6 (ix3 n s (hd h d)) k))
      + b (idx_main_v7 (idx_main_v8 (ix3 n s (hd h d))))
    = (∑ k : Fin 1024, x (ix3 n s k) * W (ix2 (hd h d) k)) + b (ix1 (hd h d))
  refine congrArg₂ (· + ·) (Finset.sum_congr rfl fun k _ => congrArg₂ (· * ·) (congrArg x ?_) (congrArg W ?_)) (congrArg b ?_)
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl

theorem proj_idx_v17 (n : Fin 2) (h : Fin 16) (s : Fin 2048) (d : Fin 64) :
    idx_main_v16 (idx_main_v17 (ix4 n h s d)) = ix3 n s (hd h d) := by
  funext a; apply Fin.ext
  have := n.isLt; have := h.isLt; have := s.isLt; have := d.isLt
  match a with
  | ⟨0, _⟩ => show (((n.val * 2048 + s.val) * 16 + h.val) * 64 + d.val) / 2097152 = n.val; omega
  | ⟨1, _⟩ => show (((n.val * 2048 + s.val) * 16 + h.val) * 64 + d.val) / 1024 % 2048 = s.val; omega
  | ⟨2, _⟩ => show (((n.val * 2048 + s.val) * 16 + h.val) * 64 + d.val) % 1024 = h.val * 64 + d.val; omega

/-- The host's projection into heads (product, bias by two broadcasts, reshape, transpose) is `projHeads`. -/
theorem v17_eq (x : A3) (W : AW) (b : AB) : val_main_v17 (F := Ideal) x W b = projHeads x W b := by
  funext i
  obtain ⟨n, h, s, d, rfl⟩ : ∃ (n : Fin 2) (h : Fin 16) (s : Fin 2048) (d : Fin 64), i = ix4 n h s d := ⟨i 0, i 1, i 2, i 3, eq_ix4 i⟩
  rw [val_main_v17_apply, val_main_v16_apply, proj_idx_v17, val_main_v15_apply, val_main_v12_apply, val_main_v14_apply, val_main_v13_apply]
  show (∑ k : Fin 1024, x (lidx_main_v12 (ix3 n s (hd h d)) k) * W (ridx_main_v12 (ix3 n s (hd h d)) k))
      + b (idx_main_v13 (idx_main_v14 (ix3 n s (hd h d))))
    = (∑ k : Fin 1024, x (ix3 n s k) * W (ix2 (hd h d) k)) + b (ix1 (hd h d))
  refine congrArg₂ (· + ·) (Finset.sum_congr rfl fun k _ => congrArg₂ (· * ·) (congrArg x ?_) (congrArg W ?_)) (congrArg b ?_)
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl

/-! ## The attention -/

section Attn

variable (x0 x1 x2 : A3) (x3 : AW) (x4 : AB) (x5 : AW) (x6 : AB) (x7 : AW) (x8 : AB)

/-- The host's scale: one over the square root of 64. -/
abbrev cR : EReal := Ideal.div (Ideal.ofBits .f32 0x3F800000#32) (Ideal.sqrt (Ideal.ofBits .f32 0x42800000#32))

/-- Row `s` of head `h` of batch entry `n` against every key position, in the host's operands. -/
abbrev sc (n : Fin 2) (h : Fin 16) (s : Fin 2048) : Fin 2048 → EReal :=
  scoreRow (val_main_v5 (F := Ideal) x0 x3 x4) (val_main_v11 (F := Ideal) x1 x5 x6) cR n h s

theorem v22_apply (n : Fin 2) (h : Fin 16) (s l : Fin 2048) :
    val_main_v22 (F := Ideal) x0 x1 x3 x4 x5 x6 (ix4 n h s l) = sc x0 x1 x3 x4 x5 x6 n h s l := by
  rw [val_main_v22_apply, val_main_v20_apply, val_main_v21_apply, val_main_v19_apply, val_main_cst_0_apply, val_main_v18_apply,
    val_main_cst_apply]
  show (∑ k : Fin 64, val_main_v5 (F := Ideal) x0 x3 x4 (lidx_main_v20 (ix4 n h s l) k)
      * val_main_v11 (F := Ideal) x1 x5 x6 (ridx_main_v20 (ix4 n h s l) k)) * cR
    = (∑ d : Fin 64, val_main_v5 (F := Ideal) x0 x3 x4 (ix4 n h s d) * val_main_v11 (F := Ideal) x1 x5 x6 (ix4 n h l d)) * cR
  refine congrArg (· * cR) (Finset.sum_congr rfl fun k _ => congrArg₂ (· * ·) (congrArg _ ?_) (congrArg _ ?_))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

theorem v23_apply (n : Fin 2) (h : Fin 16) (s : Fin 2048) :
    val_main_v23 (F := Ideal) x0 x1 x3 x4 x5 x6 (ix3 n h s) = rowMax (sc x0 x1 x3 x4 x5 x6 n h s) := by
  unfold val_main_v23
  refine (hostRowFold_apply (val_main_v22 (F := Ideal) x0 x1 x3 x4 x5 x6) (val_main_cst_1 (F := Ideal))
    reducesTo_S2x16x2048x2048_S2x16x2048_d3 (by decide) h_S_ n h s).trans ?_
  unfold rowMax
  exact congrArg (fun f => Finset.fold max (Ideal.ofBits .f32 0xFF800000#32) f Finset.univ)
    (funext fun l => v22_apply x0 x1 x3 x4 x5 x6 n h s l)

theorem v27_apply (n : Fin 2) (h : Fin 16) (s j : Fin 2048) :
    val_main_v27 (F := Ideal) x0 x1 x3 x4 x5 x6 (ix4 n h s j) = rowMax (sc x0 x1 x3 x4 x5 x6 n h s) := by
  have e : idx_main_v26 (idx_main_v27 (ix4 n h s j)) = ix3 n h s := by
    funext a
    match a with
    | ⟨0, _⟩ => rfl
    | ⟨1, _⟩ => rfl
    | ⟨2, _⟩ => rfl
  rw [val_main_v27_apply, val_main_v26_apply, e, val_main_v25_apply, val_main_v24_apply, val_main_cst_2_apply, v23_apply]
  exact max_negInf _

theorem v29_apply (n : Fin 2) (h : Fin 16) (s j : Fin 2048) :
    val_main_v29 (F := Ideal) x0 x1 x3 x4 x5 x6 (ix4 n h s j)
      = Ideal.exp (sc x0 x1 x3 x4 x5 x6 n h s j - rowMax (sc x0 x1 x3 x4 x5 x6 n h s)) := by
  rw [val_main_v29_apply, val_main_v28_apply, v22_apply, v27_apply]
  rfl

theorem v32_apply (n : Fin 2) (h : Fin 16) (s j : Fin 2048) :
    val_main_v32 (F := Ideal) x0 x1 x3 x4 x5 x6 (ix4 n h s j)
      = ∑ k : Fin 2048, Ideal.exp (sc x0 x1 x3 x4 x5 x6 n h s k - rowMax (sc x0 x1 x3 x4 x5 x6 n h s)) := by
  have e : idx_main_v31 (idx_main_v32 (ix4 n h s j)) = ix3 n h s := by
    funext a
    match a with
    | ⟨0, _⟩ => rfl
    | ⟨1, _⟩ => rfl
    | ⟨2, _⟩ => rfl
  have e' : ∀ k : Fin 2048, idx_main_v30 (ix3 n h s) k = ix4 n h s k := fun k => by
    funext a
    match a with
    | ⟨0, _⟩ => rfl
    | ⟨1, _⟩ => rfl
    | ⟨2, _⟩ => rfl
    | ⟨3, _⟩ => rfl
  rw [val_main_v32_apply, val_main_v31_apply, e, val_main_v30_apply, val_main_cst_3_apply]
  show Ideal.ofBits .f32 0x00000000#32 + _ = _
  rw [Ideal.ofBits_zero_f32, zero_add]
  exact Finset.sum_congr rfl fun k _ => by rw [e' k, v29_apply]

theorem v33_apply (n : Fin 2) (h : Fin 16) (s j : Fin 2048) :
    val_main_v33 (F := Ideal) x0 x1 x3 x4 x5 x6 (ix4 n h s j) = rowSoftmax (sc x0 x1 x3 x4 x5 x6 n h s) j := by
  rw [val_main_v33_apply, v29_apply, v32_apply]
  rfl

/-- The host's attended values are `attend` of its three projections at the scale 1 / √64. -/
theorem v34_eq : val_main_v34 (F := Ideal) x0 x1 x2 x3 x4 x5 x6 x7 x8
    = attend (val_main_v5 (F := Ideal) x0 x3 x4) (val_main_v11 (F := Ideal) x1 x5 x6) (val_main_v17 (F := Ideal) x2 x7 x8) cR := by
  funext i
  obtain ⟨n, h, s, d, rfl⟩ : ∃ (n : Fin 2) (h : Fin 16) (s : Fin 2048) (d : Fin 64), i = ix4 n h s d := ⟨i 0, i 1, i 2, i 3, eq_ix4 i⟩
  rw [val_main_v34_apply]
  show _ = ∑ j : Fin 2048, rowSoftmax (sc x0 x1 x3 x4 x5 x6 n h s) j * val_main_v17 (F := Ideal) x2 x7 x8 (ix4 n h j d)
  refine Finset.sum_congr rfl fun j _ => ?_
  have el : lidx_main_v34 (ix4 n h s d) j = ix4 n h s j := by
    funext a
    match a with
    | ⟨0, _⟩ => rfl
    | ⟨1, _⟩ => rfl
    | ⟨2, _⟩ => rfl
    | ⟨3, _⟩ => rfl
  have er : ridx_main_v34 (ix4 n h s d) j = ix4 n h j d := by
    funext a
    match a with
    | ⟨0, _⟩ => rfl
    | ⟨1, _⟩ => rfl
    | ⟨2, _⟩ => rfl
    | ⟨3, _⟩ => rfl
  rw [el, er, v33_apply]

end Attn

/-! ## The output projection and the whole -/

section Out

variable (x0 x1 x2 : A3) (x3 : AW) (x4 : AB) (x5 : AW) (x6 : AB) (x7 : AW) (x8 : AB) (x9 : AW) (x10 : AB)

theorem cat_idx (n : Fin 2) (s : Fin 2048) (k : Fin 1024) : idx_main_v35 (ix3 n s k) = cat n s k := by
  funext a; apply Fin.ext
  have := n.isLt; have := s.isLt; have := k.isLt
  match a with
  | ⟨0, _⟩ => show ((n.val * 2048 + s.val) * 1024 + k.val) / 2097152 = n.val; omega
  | ⟨1, _⟩ => show ((n.val * 2048 + s.val) * 1024 + k.val) / 131072 % 16 = (s.val * 1024 + k.val) / 131072; omega
  | ⟨2, _⟩ => show ((n.val * 2048 + s.val) * 1024 + k.val) / 64 % 2048 = (s.val * 1024 + k.val) / 64 % 2048; omega
  | ⟨3, _⟩ => show ((n.val * 2048 + s.val) * 1024 + k.val) % 64 = (s.val * 1024 + k.val) % 64; omega

/-- The host's last projection is `outProj` of its attended values. -/
theorem v39_eq : val_main_v39 (F := Ideal) x0 x1 x2 x3 x4 x5 x6 x7 x8 x9 x10
    = outProj (val_main_v34 (F := Ideal) x0 x1 x2 x3 x4 x5 x6 x7 x8) x9 x10 := by
  funext i
  obtain ⟨n, s, e, rfl⟩ : ∃ (n : Fin 2) (s : Fin 2048) (e : Fin 1024), i = ix3 n s e := ⟨i 0, i 1, i 2, eq_ix3 i⟩
  rw [val_main_v39_apply, val_main_v36_apply, val_main_v38_apply, val_main_v37_apply]
  show (∑ k : Fin 1024, val_main_v35 (F := Ideal) x0 x1 x2 x3 x4 x5 x6 x7 x8 (lidx_main_v36 (ix3 n s e) k) * x9 (ridx_main_v36 (ix3 n s e) k))
      + x10 (idx_main_v37 (idx_main_v38 (ix3 n s e)))
    = (∑ k : Fin 1024, val_main_v34 (F := Ideal) x0 x1 x2 x3 x4 x5 x6 x7 x8 (cat n s k) * x9 (ix2 e k)) + x10 (ix1 e)
  refine congrArg₂ (· + ·) (Finset.sum_congr rfl fun k _ => congrArg₂ (· * ·) ?_ (congrArg x9 ?_)) (congrArg x10 ?_)
  · have el : lidx_main_v36 (ix3 n s e) k = ix3 n s k := by
      funext a
      match a with
      | ⟨0, _⟩ => rfl
      | ⟨1, _⟩ => rfl
      | ⟨2, _⟩ => rfl
    rw [el, val_main_v35_apply, cat_idx]
  · funext a
    match a with
    | ⟨0, _⟩ => rfl
    | ⟨1, _⟩ => rfl
  · funext a
    match a with
    | ⟨0, _⟩ => rfl

/-- THE REFERENCE'S RESULT: multi-head attention of the eleven arguments at the scale 1/8. -/
theorem result_eq : val_main_v39 (F := Ideal) x0 x1 x2 x3 x4 x5 x6 x7 x8 x9 x10
    = mha x0 x1 x2 x3 x4 x5 x6 x7 x8 x9 x10 (Ideal.ofBits .f32 0x3E000000#32) := by
  rw [v39_eq, v34_eq, v5_eq, v11_eq, v17_eq, ← inv_sqrt_64]
  rfl

end Out

end Cert.ReferenceIdeal.RefV

end
-- ==== Proof.lean ====
/-
  Multi-head attention (batch 2, sequence 2048, width 1024 = 16 heads of 64) as five kernels — three projections into
  heads, attention over all 32 (batch entry, head) pairs, the output projection — against the plain array program.

  On the extended reals both programs compute one function of the eleven arguments, `Cert.Mha.mha` at the scale 1/8:
  the kernels' narrowing of operands is the identity there, a matrix-unit product into zeros is the plain sum of
  products, the kernels' pre-transposed weight tables read back as the tables themselves, the blocks of every kernel
  tile its output, and the reshapes between the kernels keep every number at its row-major position — the same position
  the reference's own reshapes give it. The kernels multiply the scores by the word of 1/8; the reference by 1 / √64,
  which is 1/8. No law used needs the entries to be finite, so the precondition is never opened.

  The three frames: the two kernel programs' are the generated frame certificates; the reference's is its run with the
  result dropped. The idealization made no rewrite, so there is nothing to preserve.
-/
import proofs.«151448_j37649683317083_2_alg».proof.Defs
import proofs.«151448_j37649683317083_2_alg».proof.Proof.Gen.Kernel
import proofs.«151448_j37649683317083_2_alg».proof.Proof.Gen.Kernel.Frame
import proofs.«151448_j37649683317083_2_alg».proof.Proof.Gen.KernelIdeal
import proofs.«151448_j37649683317083_2_alg».proof.Proof.Gen.KernelIdeal.Frame
import proofs.«151448_j37649683317083_2_alg».proof.Proof.Gen.ReferenceIdeal
import proofs.«151448_j37649683317083_2_alg».proof.Proof.Gen.Pre_finite_inputs
import proofs.«151448_j37649683317083_2_alg».proof.Proof.Gen.ReferenceIdeal.Run
import proofs.«151448_j37649683317083_2_alg».proof.Proof.Gen.ReferenceIdeal.Read
import proofs.«151448_j37649683317083_2_alg».proof.Proof.KernelRun
import proofs.«151448_j37649683317083_2_alg».proof.Proof.KernelValue
import proofs.«151448_j37649683317083_2_alg».proof.Proof.RefValue
import Idealize.ShloMosaic.Adequacy
import Idealize.ShloMosaic.Init

noncomputable section

namespace Cert.Proof

open Idealize.ShloMosaic Idealize.ShloMosaic.TcCoe Idealize.SL.Sem

namespace Claims

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at multi-head attention of the (agreeing) arguments at the scale 1/8. -/
theorem algebraic : Cert.algebraic_KernelIdeal_ReferenceIdeal := by
  intro m ρ m' ρ' _ hagree
  refine ⟨fun c => Cert.Mha.mha (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (Ideal.ofBits .f32 0x3E000000#32), ?_, ?_⟩
  · exact (θ_run Cert.KernelIdeal.defs _ _).mono
      (fun r h c => ⟨(h c).1.trans (Cert.KernelIdeal.KV.result_eq m ρ c), (h c).2⟩)
      (Cert.KernelIdeal.RunV.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v39_eq, Cert.ReferenceIdeal.RefV.result_eq, a0, a1, a2, a3, a4, a5, a6, a7, a8, a9, a10]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
